-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S6144x2048 : Shape := ⟨2, ![6144, 2048]⟩
abbrev S2048x6144 : Shape := ⟨2, ![2048, 6144]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S2048x6144 : S_.BroadcastsInDim S2048x6144 (![] : Fin 0 → Fin S2048x6144.rank)
  reducesTo_S2048x6144_S_d0_1 : S2048x6144.ReducesTo [0, 1] S_

variable [Facts]

def fn_part1 {F : FTy → Type} [FloatOps F] (main_v13 : IVec S_ 1) (main_v16 : IVec S2048x6144 1) : IVec S_ 1 :=
  let main_c_5 : IVec S_ 1 := constantI S_ 1 1#1
  let main_v17 : IVec S_ 1 := (fun x v => Host.reduce IntOp.andi x v reducesTo_S2048x6144_S_d0_1 h_S_) main_v16 main_c_5
  let main_v18 : IVec S_ 1 := andi main_v13 main_v17
  main_v18

def fn {F : FTy → Type} [FloatOps F] (main_arg0 : FVec F S4x2048x2048 .f32) (main_arg1 : FVec F S6144x2048 .f32) (main_arg2 : FVec F S6144x2048 .f32) (main_arg3 : FVec F S2048x6144 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144x2048 .f32 := Host.absf main_arg2
  let main_cst_2 : FVec F S_ .f32 := constant S_ .f32 0x7F800000#32
  let main_v10 : FVec F S6144x2048 .f32 := broadcastInDim S6144x2048 ![] bcast_S_S6144x2048 main_cst_2
  let main_v11 : IVec S6144x2048 1 := cmpf .olt main_v9 main_v10
  let main_c_3 : IVec S_ 1 := constantI S_ 1 1#1
  let main_v12 : IVec S_ 1 := (fun x v => Host.reduce IntOp.andi x v reducesTo_S6144x2048_S_d0_1 h_S_) main_v11 main_c_3
  let main_v13 : IVec S_ 1 := andi main_v8 main_v12
  let main_v14 : FVec F S2048x6144 .f32 := Host.absf main_arg3
  let main_cst_4 : FVec F S_ .f32 := constant S_ .f32 0x7F800000#32
  let main_v15 : FVec F S2048x6144 .f32 := broadcastInDim S2048x6144 ![] bcast_S_S2048x6144 main_cst_4
  let main_v16 : IVec S2048x6144 1 := cmpf .olt main_v14 main_v15
  fn_part1 (F := F) main_v13 main_v16
-- ==== Kernel.lean ====
abbrev S4x2048x2048 : Shape := ⟨3, ![4, 2048, 2048]⟩
abbrev S6144x2048 : Shape := ⟨2, ![6144, 2048]⟩
abbrev S2048x6144 : Shape := ⟨2, ![2048, 6144]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S128x6144 : Shape := ⟨2, ![128, 6144]⟩
abbrev S128 : Shape := ⟨1, ![128]⟩
abbrev S128x1 : Shape := ⟨2, ![128, 1]⟩
abbrev S8192x6144 : Shape := ⟨2, ![8192, 6144]⟩
abbrev S1024x2048 : Shape := ⟨2, ![1024, 2048]⟩
abbrev S512x1024 : Shape := ⟨2, ![512, 1024]⟩
abbrev S2048x1024 : Shape := ⟨2, ![2048, 1024]⟩
abbrev S256x6144 : Shape := ⟨2, ![256, 6144]⟩
abbrev S512x6144 : Shape := ⟨2, ![512, 6144]⟩
abbrev S256x512 : Shape := ⟨2, ![256, 512]⟩
abbrev S6144x512 : Shape := ⟨2, ![6144, 512]⟩

abbrev nBuf : Space → Nat
  | .hbm => 13
  | .vmem => 34
  | .smem => 0
  | _ => 0

abbrev bufTy : (tb : Table) → Fin (tcTables nBuf tb) → BufTy
  | .hbm, ⟨0, _⟩ => ⟨S4x2048x2048, .f32⟩
  | .hbm, ⟨1, _⟩ => ⟨S6144x2048, .f32⟩
  | .hbm, ⟨2, _⟩ => ⟨S6144x2048, .f32⟩
  | .hbm, ⟨3, _⟩ => ⟨S2048x6144, .f32⟩
  | .hbm, ⟨4, _⟩ => ⟨S8192x2048, .f32⟩
  | .hbm, ⟨5, _⟩ => ⟨S6144x2048, .bf16⟩
  | .hbm, ⟨6, _⟩ => ⟨S6144x2048, .bf16⟩
  | .hbm, ⟨7, _⟩ => ⟨S2048x6144, .bf16⟩
  | .hbm, ⟨8, _⟩ => ⟨S8192x2048, .bf16⟩
  | .hbm, ⟨9, _⟩ => ⟨S8192x6144, .f32⟩
  | .hbm, ⟨10, _⟩ => ⟨S8192x6144, .bf16⟩
  | .hbm, ⟨11, _⟩ => ⟨S8192x2048, .f32⟩
  | .hbm, ⟨12, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S128x6144, .f32⟩
  | .local _ .vmem, ⟨9, _⟩ => ⟨S128x6144, .f32⟩
  | .local _ .vmem, ⟨10, _⟩ => ⟨S128x6144, .bf16⟩
  | .local _ .vmem, ⟨11, _⟩ => ⟨S128x6144, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S512x1024, .f32⟩
  | .local _ .vmem, ⟨23, _⟩ => ⟨S512x1024, .f32⟩
  | .local _ .vmem, ⟨24, _⟩ => ⟨S128x6144, .f32⟩
  | .local _ .vmem, ⟨25, _⟩ => ⟨S128x6144, .f32⟩
  | .local _ .vmem, ⟨26, _⟩ => ⟨S128x6144, .bf16⟩
  | .local _ .vmem, ⟨27, _⟩ => ⟨S128x6144, .bf16⟩
  | .local _ .vmem, ⟨28, _⟩ => ⟨S256x6144, .bf16⟩
  | .local _ .vmem, ⟨29, _⟩ => ⟨S256x6144, .bf16⟩
  | .local _ .vmem, ⟨30, _⟩ => ⟨S512x6144, .bf16⟩
  | .local _ .vmem, ⟨31, _⟩ => ⟨S512x6144, .bf16⟩
  | .local _ .vmem, ⟨32, _⟩ => ⟨S256x512, .f32⟩
  | .local _ .vmem, ⟨33, _⟩ => ⟨S256x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc5_sem0_0 : DmaSem sig := 24
abbrev cc5_sem0_1 : DmaSem sig := 25
abbrev cc5_sem1_0 : DmaSem sig := 26
abbrev cc5_sem1_1 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc6_sem2_1 : DmaSem sig := 33

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x6144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x6144 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![6, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x6144 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x6144 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨2, ![4, 32], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S256x6144 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S512x6144 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

class Facts₀ : Prop where
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S128x6144_S128x6144_0_0 : ∀ a, (![0, 0] : Fin 2 → Nat) a + S128x6144.size a ≤ S128x6144.size a
  h_S128x6144 : 0 < S128x6144.numel
  reduces_S128x6144_S128 : S128x6144.Reduces [1] S128
  shapeCasts_S128_S128x1 : S128.ShapeCasts S128x1
  broadcasts_S128x1_S128x6144 : S128x1.Broadcasts S128x6144
  packedbf16_S128x6144_S128x6144_0_0 : (Rect.unit (s := S128x6144) ![0, 0] S128x6144.size inb_S128x6144_S128x6144_0_0).PackedRows (EltTy.packing .bf16)
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S512x1024_S512x1024_0_0 : ∀ a, (![0, 0] : Fin 2 → Nat) a + S512x1024.size a ≤ S512x1024.size a
  h_S512x1024 : 0 < S512x1024.numel
  shapeCasts_S128x6144_S128x6144 : S128x6144.ShapeCasts S128x6144
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S512x6144_S512x6144_0_0 : ∀ a, (![0, 0] : Fin 2 → Nat) a + S512x6144.size a ≤ S512x6144.size a
  h_S512x6144 : 0 < S512x6144.numel
  shapeCasts_S512x6144_S512x6144 : S512x6144.ShapeCasts S512x6144
  transposes_S512x6144_p1_0_S6144x512 : S512x6144.Transposes [1, 0] S6144x512
  inb_S256x512_S256x512_0_0 : ∀ a, (![0, 0] : Fin 2 → Nat) a + S256x512.size a ≤ S256x512.size a
  h_S256x512 : 0 < S256x512.numel
  shapeCasts_S8192x2048_S4x2048x2048 : S8192x2048.ShapeCasts S4x2048x2048
  dot_S512x2048_S2048x1024_S512x1024_1_0_0_1_n_n_wf : DotDims.WF S512x2048 S2048x1024 S512x1024 [1] [0] [0] [1] [] []
  dot_S256x6144_S6144x512_S256x512_1_0_0_1_n_n_wf : DotDims.WF S256x6144 S6144x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S6144x2048.size a
  hwx0_0 : ∀ i : grid0.Coords, EltTy.bits .f32 = 32 ∨ (Rect.block (s := S6144x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S6144x2048.size a
  hwx0_1 : ∀ i : grid0.Coords, EltTy.bits .bf16 = 32 ∨ (Rect.block (s := S6144x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S6144x2048.size a
  hwx1_0 : ∀ i : grid1.Coords, EltTy.bits .f32 = 32 ∨ (Rect.block (s := S6144x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S6144x2048.size a
  hwx1_1 : ∀ i : grid1.Coords, EltTy.bits .bf16 = 32 ∨ (Rect.block (s := S6144x2048) S512x2048.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x6144.size a ≤ S2048x6144.size a
  hwx2_0 : ∀ i : grid2.Coords, EltTy.bits .f32 = 32 ∨ (Rect.block (s := S2048x6144) S128x6144.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x6144.size a ≤ S2048x6144.size a
  hwx2_1 : ∀ i : grid2.Coords, EltTy.bits .bf16 = 32 ∨ (Rect.block (s := S2048x6144) S128x6144.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x2048.size a
  hwx3_0 : ∀ i : grid3.Coords, EltTy.bits .f32 = 32 ∨ (Rect.block (s := S8192x2048) S512x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S8192x2048.size a
  hwx3_1 : ∀ i : grid3.Coords, EltTy.bits .bf16 = 32 ∨ (Rect.block (s := S8192x2048) S512x2048.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S8192x2048.size a
  hwx4_0 : ∀ i : grid4.Coords, EltTy.bits .bf16 = 32 ∨ (Rect.block (s := S8192x2048) S512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S6144x2048.size a
  hwx4_1 : ∀ i : grid4.Coords, EltTy.bits .bf16 = 32 ∨ (Rect.block (s := S6144x2048) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x2048.size a ≤ S6144x2048.size a
  hwx4_2 : ∀ i : grid4.Coords, EltTy.bits .bf16 = 32 ∨ (Rect.block (s := S6144x2048) S1024x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S8192x6144.size a
  hwx4_3 : ∀ i : grid4.Coords, EltTy.bits .f32 = 32 ∨ (Rect.block (s := S8192x6144) S512x1024.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x6144.size a ≤ S8192x6144.size a
  hwx5_0 : ∀ i : grid5.Coords, EltTy.bits .f32 = 32 ∨ (Rect.block (s := S8192x6144) S128x6144.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x6144.size a ≤ S8192x6144.size a
  hwx5_1 : ∀ i : grid5.Coords, EltTy.bits .bf16 = 32 ∨ (Rect.block (s := S8192x6144) S128x6144.size (cc5_transform_1 i) (hinb5_1 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x6144.size a ≤ S8192x6144.size a
  hwx6_0 : ∀ i : grid6.Coords, EltTy.bits .bf16 = 32 ∨ (Rect.block (s := S8192x6144) S256x6144.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x6144.size a ≤ S2048x6144.size a
  hwx6_1 : ∀ i : grid6.Coords, EltTy.bits .bf16 = 32 ∨ (Rect.block (s := S2048x6144) S512x6144.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x512.size a ≤ S8192x2048.size a
  hwx6_2 : ∀ i : grid6.Coords, EltTy.bits .f32 = 32 ∨ (Rect.block (s := S8192x2048) S256x512.size (cc6_transform_2 i) (hinb6_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S256x6144_S6144x512_S256x512_1_0_0_1_n_n : DotDims S256x6144 S6144x512 S256x512 where
  lhsContracting := [1]
  rhsContracting := [0]
  lhsNonContracting := [0]
  rhsNonContracting := [1]
  lhsBatch := []
  rhsBatch := []
  wf := dot_S256x6144_S6144x512_S256x512_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg3) S128x6144.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S128x6144.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v0) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S512x2048.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v4) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1024x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1024x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v5) S128x6144.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v6) S128x6144.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v6) S256x6144.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S512x6144.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v7) S256x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S4x2048x2048 : Shape := ⟨3, ![4, 2048, 2048]⟩
abbrev S6144x2048 : Shape := ⟨2, ![6144, 2048]⟩
abbrev S2048x6144 : Shape := ⟨2, ![2048, 6144]⟩
abbrev S_ : Shape := ⟨0, ![]⟩
abbrev S4x2048 : Shape := ⟨2, ![4, 2048]⟩
abbrev S4x2048x1 : Shape := ⟨3, ![4, 2048, 1]⟩
abbrev S6144 : Shape := ⟨1, ![6144]⟩
abbrev S6144x1 : Shape := ⟨2, ![6144, 1]⟩
abbrev S4x2048x6144 : Shape := ⟨3, ![4, 2048, 6144]⟩
abbrev S2048 : Shape := ⟨1, ![2048]⟩
abbrev S2048x1 : Shape := ⟨2, ![2048, 1]⟩

abbrev nBuf : Space → Nat
  | .hbm => 167
  | .vmem => 0
  | .smem => 0
  | _ => 0

abbrev hbmTy0_0 (i : Nat) : BufTy := match i % 128 with
  | 0 => ⟨S4x2048x2048, .f32⟩
  | 1 => ⟨S6144x2048, .f32⟩
  | 2 => ⟨S6144x2048, .f32⟩
  | 3 => ⟨S2048x6144, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x2048, .f32⟩
  | 15 => ⟨S4x2048x2048, .f32⟩
  | 16 => ⟨S4x2048x2048, .f32⟩
  | 17 => ⟨S4x2048x2048, .f32⟩
  | 18 => ⟨S4x2048x2048, .f32⟩
  | 19 => ⟨S_, .f32⟩
  | 20 => ⟨S_, .f32⟩
  | 21 => ⟨S_, .f32⟩
  | 22 => ⟨S4x2048x2048, .f32⟩
  | 23 => ⟨S4x2048x2048, .f32⟩
  | 24 => ⟨S_, .f32⟩
  | 25 => ⟨S4x2048x2048, .f32⟩
  | 26 => ⟨S4x2048x2048, .f32⟩
  | 27 => ⟨S4x2048x2048, .f32⟩
  | 28 => ⟨S4x2048x2048, .f32⟩
  | 29 => ⟨S6144x2048, .f32⟩
  | 30 => ⟨S_, .f32⟩
  | 31 => ⟨S6144, .f32⟩
  | 32 => ⟨S6144x1, .f32⟩
  | 33 => ⟨S_, .f32⟩
  | 34 => ⟨S6144x1, .f32⟩
  | 35 => ⟨S6144x1, .f32⟩
  | 36 => ⟨S_, .f32⟩
  | 37 => ⟨S6144x1, .f32⟩
  | 38 => ⟨S6144x1, .f32⟩
  | 39 => ⟨S6144x2048, .f32⟩
  | 40 => ⟨S6144x2048, .f32⟩
  | 41 => ⟨S6144x2048, .f32⟩
  | 42 => ⟨S6144x2048, .f32⟩
  | 43 => ⟨S6144x2048, .f32⟩
  | 44 => ⟨S_, .f32⟩
  | 45 => ⟨S_, .f32⟩
  | 46 => ⟨S_, .f32⟩
  | 47 => ⟨S6144x2048, .f32⟩
  | 48 => ⟨S6144x2048, .f32⟩
  | 49 => ⟨S_, .f32⟩
  | 50 => ⟨S6144x2048, .f32⟩
  | 51 => ⟨S6144x2048, .f32⟩
  | 52 => ⟨S6144x2048, .f32⟩
  | 53 => ⟨S6144x2048, .f32⟩
  | 54 => ⟨S4x2048x6144, .f32⟩
  | 55 => ⟨S4x2048x6144, .f32⟩
  | 56 => ⟨S4x2048x6144, .f32⟩
  | 57 => ⟨S_, .f32⟩
  | 58 => ⟨S4x2048x6144, .f32⟩
  | 59 => ⟨S4x2048x6144, .f32⟩
  | 60 => ⟨S_, .f32⟩
  | 61 => ⟨S4x2048x6144, .f32⟩
  | 62 => ⟨S4x2048x6144, .f32⟩
  | 63 => ⟨S4x2048x6144, .f32⟩
  | 64 => ⟨S4x2048x2048, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S_, .f32⟩
  | 72 => ⟨S4x2048x1, .f32⟩
  | 73 => ⟨S4x2048x1, .f32⟩
  | 74 => ⟨S4x2048x2048, .f32⟩
  | 75 => ⟨S4x2048x2048, .f32⟩
  | 76 => ⟨S4x2048x2048, .f32⟩
  | 77 => ⟨S4x2048x2048, .f32⟩
  | 78 => ⟨S4x2048x2048, .f32⟩
  | 79 => ⟨S_, .f32⟩
  | 80 => ⟨S_, .f32⟩
  | 81 => ⟨S_, .f32⟩
  | 82 => ⟨S4x2048x2048, .f32⟩
  | 83 => ⟨S4x2048x2048, .f32⟩
  | 84 => ⟨S_, .f32⟩
  | 85 => ⟨S4x2048x2048, .f32⟩
  | 86 => ⟨S4x2048x2048, .f32⟩
  | 87 => ⟨S4x2048x2048, .f32⟩
  | 88 => ⟨S4x2048x2048, .f32⟩
  | 89 => ⟨S6144x2048, .f32⟩
  | 90 => ⟨S_, .f32⟩
  | 91 => ⟨S6144, .f32⟩
  | 92 => ⟨S6144x1, .f32⟩
  | 93 => ⟨S_, .f32⟩
  | 94 => ⟨S6144x1, .f32⟩
  | 95 => ⟨S6144x1, .f32⟩
  | 96 => ⟨S_, .f32⟩
  | 97 => ⟨S6144x1, .f32⟩
  | 98 => ⟨S6144x1, .f32⟩
  | 99 => ⟨S6144x2048, .f32⟩
  | 100 => ⟨S6144x2048, .f32⟩
  | 101 => ⟨S6144x2048, .f32⟩
  | 102 => ⟨S6144x2048, .f32⟩
  | 103 => ⟨S6144x2048, .f32⟩
  | 104 => ⟨S_, .f32⟩
  | 105 => ⟨S_, .f32⟩
  | 106 => ⟨S_, .f32⟩
  | 107 => ⟨S6144x2048, .f32⟩
  | 108 => ⟨S6144x2048, .f32⟩
  | 109 => ⟨S_, .f32⟩
  | 110 => ⟨S6144x2048, .f32⟩
  | 111 => ⟨S6144x2048, .f32⟩
  | 112 => ⟨S6144x2048, .f32⟩
  | 113 => ⟨S6144x2048, .f32⟩
  | 114 => ⟨S4x2048x6144, .f32⟩
  | 115 => ⟨S4x2048x6144, .f32⟩
  | 116 => ⟨S4x2048x6144, .f32⟩
  | 117 => ⟨S_, .f32⟩
  | 118 => ⟨S4x2048, .f32⟩
  | 119 => ⟨S4x2048x1, .f32⟩
  | 120 => ⟨S_, .f32⟩
  | 121 => ⟨S4x2048x1, .f32⟩
  | 122 => ⟨S4x2048x1, .f32⟩
  | 123 => ⟨S_, .f32⟩
  | 124 => ⟨S4x2048x1, .f32⟩
  | 125 => ⟨S4x2048x1, .f32⟩
  | 126 => ⟨S4x2048x6144, .f32⟩
  | 127 => ⟨S4x2048x6144, .f32⟩
  | _ => ⟨S4x2048x2048, .f32⟩

abbrev hbmTy0_1 (i : Nat) : BufTy := match i % 128 with
  | 0 => ⟨S4x2048x6144, .f32⟩
  | 1 => ⟨S4x2048x6144, .f32⟩
  | 2 => ⟨S4x2048x6144, .f32⟩
  | 3 => ⟨S_, .f32⟩
  | 4 => ⟨S_, .f32⟩
  | 5 => ⟨S_, .f32⟩
  | 6 => ⟨S4x2048x6144, .f32⟩
  | 7 => ⟨S4x2048x6144, .f32⟩
  | 8 => ⟨S_, .f32⟩
  | 9 => ⟨S4x2048x6144, .f32⟩
  | 10 => ⟨S4x2048x6144, .f32⟩
  | 11 => ⟨S4x2048x6144, .f32⟩
  | 12 => ⟨S4x2048x6144, .f32⟩
  | 13 => ⟨S2048x6144, .f32⟩
  | 14 => ⟨S_, .f32⟩
  | 15 => ⟨S2048, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x6144, .f32⟩
  | 24 => ⟨S2048x6144, .f32⟩
  | 25 => ⟨S2048x6144, .f32⟩
  | 26 => ⟨S2048x6144, .f32⟩
  | 27 => ⟨S2048x6144, .f32⟩
  | 28 => ⟨S_, .f32⟩
  | 29 => ⟨S_, .f32⟩
  | 30 => ⟨S_, .f32⟩
  | 31 => ⟨S2048x6144, .f32⟩
  | 32 => ⟨S2048x6144, .f32⟩
  | 33 => ⟨S_, .f32⟩
  | 34 => ⟨S2048x6144, .f32⟩
  | 35 => ⟨S2048x6144, .f32⟩
  | 36 => ⟨S2048x6144, .f32⟩
  | 37 => ⟨S2048x6144, .f32⟩
  | 38 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call4_v0 : Ref sig .tc := ⟨.hbm, 55, rfl⟩
abbrev main_call4_v1 : Ref sig .tc := ⟨.hbm, 56, rfl⟩
abbrev main_call4_cst : Ref sig .tc := ⟨.hbm, 57, rfl⟩
abbrev main_call4_v2 : Ref sig .tc := ⟨.hbm, 58, rfl⟩
abbrev main_call4_v3 : Ref sig .tc := ⟨.hbm, 59, rfl⟩
abbrev main_call4_cst_0 : Ref sig .tc := ⟨.hbm, 60, rfl⟩
abbrev main_call4_v4 : Ref sig .tc := ⟨.hbm, 61, rfl⟩
abbrev main_call4_v5 : Ref sig .tc := ⟨.hbm, 62, rfl⟩
abbrev main_v31 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_cst_10 : Ref sig .tc := ⟨.hbm, 68, rfl⟩
abbrev main_v35 : Ref sig .tc := ⟨.hbm, 69, rfl⟩
abbrev main_v36 : Ref sig .tc := ⟨.hbm, 70, rfl⟩
abbrev main_cst_11 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_12 : Ref sig .tc := ⟨.hbm, 79, rfl⟩
abbrev main_cst_13 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_14 : Ref sig .tc := ⟨.hbm, 90, rfl⟩
abbrev main_v48 : Ref sig .tc := ⟨.hbm, 91, rfl⟩
abbrev main_v49 : Ref sig .tc := ⟨.hbm, 92, rfl⟩
abbrev main_cst_15 : Ref sig .tc := ⟨.hbm, 93, rfl⟩
abbrev main_v50 : Ref sig .tc := ⟨.hbm, 94, rfl⟩
abbrev main_v51 : Ref sig .tc := ⟨.hbm, 95, rfl⟩
abbrev main_cst_16 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_17 : Ref sig .tc := ⟨.hbm, 104, rfl⟩
abbrev main_cst_18 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_call8_v3 : Ref sig .tc := ⟨.hbm, 109, rfl⟩
abbrev main_call8_v4 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_19 : Ref sig .tc := ⟨.hbm, 117, rfl⟩
abbrev main_v65 : Ref sig .tc := ⟨.hbm, 118, rfl⟩
abbrev main_v66 : Ref sig .tc := ⟨.hbm, 119, rfl⟩
abbrev main_cst_20 : Ref sig .tc := ⟨.hbm, 120, rfl⟩
abbrev main_v67 : Ref sig .tc := ⟨.hbm, 121, rfl⟩
abbrev main_v68 : Ref sig .tc := ⟨.hbm, 122, rfl⟩
abbrev main_cst_21 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_22 : Ref sig .tc := ⟨.hbm, 131, rfl⟩
abbrev main_cst_23 : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_call10_v3 : Ref sig .tc := ⟨.hbm, 136, rfl⟩
abbrev main_call10_v4 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_24 : Ref sig .tc := ⟨.hbm, 142, rfl⟩
abbrev main_v80 : Ref sig .tc := ⟨.hbm, 143, rfl⟩
abbrev main_v81 : Ref sig .tc := ⟨.hbm, 144, rfl⟩
abbrev main_cst_25 : Ref sig .tc := ⟨.hbm, 145, rfl⟩
abbrev main_v82 : Ref sig .tc := ⟨.hbm, 146, rfl⟩
abbrev main_v83 : Ref sig .tc := ⟨.hbm, 147, rfl⟩
abbrev main_cst_26 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_27 : Ref sig .tc := ⟨.hbm, 156, rfl⟩
abbrev main_cst_28 : Ref sig .tc := ⟨.hbm, 157, rfl⟩
abbrev main_call12_v0 : Ref sig .tc := ⟨.hbm, 158, rfl⟩
abbrev main_call12_v1 : Ref sig .tc := ⟨.hbm, 159, rfl⟩
abbrev main_call12_v2 : Ref sig .tc := ⟨.hbm, 160, rfl⟩
abbrev main_call12_v3 : Ref sig .tc := ⟨.hbm, 161, rfl⟩
abbrev main_call12_v4 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S6144x2048_S6144_d1 : S6144x2048.ReducesTo [1] S6144
  bcast_S6144_S6144x1_0 : S6144.BroadcastsInDim S6144x1 (![0] : Fin 1 → Fin S6144x1.rank)
  bcast_S_S6144x1 : S_.BroadcastsInDim S6144x1 (![] : Fin 0 → Fin S6144x1.rank)
  bcast_S6144x1_S6144x2048_0_1 : S6144x1.BroadcastsInDim S6144x2048 (![0, 1] : Fin 2 → Fin S6144x2048.rank)
  bcast_S_S6144x2048 : S_.BroadcastsInDim S6144x2048 (![] : Fin 0 → Fin S6144x2048.rank)
  bcast_S_S4x2048x6144 : S_.BroadcastsInDim S4x2048x6144 (![] : Fin 0 → Fin S4x2048x6144.rank)
  reducesTo_S4x2048x6144_S4x2048_d2 : S4x2048x6144.ReducesTo [2] S4x2048
  bcast_S4x2048x1_S4x2048x6144_0_1_2 : S4x2048x1.BroadcastsInDim S4x2048x6144 (![0, 1, 2] : Fin 3 → Fin S4x2048x6144.rank)
  reducesTo_S2048x6144_S2048_d1 : S2048x6144.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x6144_0_1 : S2048x1.BroadcastsInDim S2048x6144 (![0, 1] : Fin 2 → Fin S2048x6144.rank)
  bcast_S_S2048x6144 : S_.BroadcastsInDim S2048x6144 (![] : Fin 0 → Fin S2048x6144.rank)
  dot_S4x2048x2048_S6144x2048_S4x2048x6144_2_1_01_0_n_n_wf : DotDims.WF S4x2048x2048 S6144x2048 S4x2048x6144 [2] [1] [0, 1] [0] [] []
  dot_S4x2048x6144_S2048x6144_S4x2048x2048_2_1_01_0_n_n_wf : DotDims.WF S4x2048x6144 S2048x6144 S4x2048x2048 [2] [1] [0, 1] [0] [] []

variable [Facts₀]

def dot_S4x2048x2048_S6144x2048_S4x2048x6144_2_1_01_0_n_n : DotDims S4x2048x2048 S6144x2048 S4x2048x6144 where
  lhsContracting := [2]
  rhsContracting := [1]
  lhsNonContracting := [0, 1]
  rhsNonContracting := [0]
  lhsBatch := []
  rhsBatch := []
  wf := dot_S4x2048x2048_S6144x2048_S4x2048x6144_2_1_01_0_n_n_wf
def dot_S4x2048x6144_S2048x6144_S4x2048x2048_2_1_01_0_n_n : DotDims S4x2048x6144 S2048x6144 S4x2048x2048 where
  lhsContracting := [2]
  rhsContracting := [1]
  lhsNonContracting := [0, 1]
  rhsNonContracting := [0]
  lhsBatch := []
  rhsBatch := []
  wf := dot_S4x2048x6144_S2048x6144_S4x2048x2048_2_1_01_0_n_n_wf

class Facts : Prop extends Facts₀ where

variable [Facts]
-- ==== Proof.KernelRun.lean ====
/-
  The idealized kernel's run with its RESULT named.

  @main is seven pallas_call regions between two reshapes. The run below is the launch of those nine segments; its
  last thread state holds every unscoped buffer at the contents of the last segment boundary, so the final state has
  the result buffer (the reshape of the down projection's output) at that boundary's value `W9 … main_v8`, and each
  argument array as launched. What `W9 … main_v8` is, as a function of the arguments, is read off region by region
  in the modules that follow.
-/
import proofs.«119847_j17025250361715_2_alg».proof.Proof.Gen.KernelIdeal.Frame

set_option maxRecDepth 16384

noncomputable section

namespace Cert.Mlp.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.KernelIdeal.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last boundary's
    contents and the four argument arrays unchanged. -/
theorem run_value : θ_run defs (onTc (τ := τ) (main (F := F))) ⟨m, fun _ => 0, ρ⟩ (fun r => ∀ c : Dev nD,
      r.2.mem ((c.tc : Thread nD τ).loc main_v8) = W9 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v8 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.Mlp.Kern

end
-- ==== Proof.QuantSpec.lean ====
/-
  The mathematics both programs compute, row by row, on the extended reals.

  A row `f` (an input row, a weight row, or a row of the hidden activations) is quantised symmetrically to 8 bits:
  its scale is `s = max (max_k |f k| / 127) ε`, and entry `k` becomes `clip (round (f k / s)) · s` with the clip to
  [−127, 127] and rounding to nearest, ties to even. The reference spells the rounding as the straight-through
  form `a + (round a − a)` (`quantSte`); the two agree wherever `a` is a real number.

  The gated MLP of a token row `x`: with `gate_j = Σ_k q(x)_k · q(Wg_j)_k` and `up_j = Σ_k q(x)_k · q(Wu_j)_k`, the
  hidden row is `h_j = gate_j · σ(gate_j) · up_j` (σ the logistic function), and the result row is
  `out_o = Σ_j q(h)_j · q(Wd_o)_j`.
-/
import Idealize.ShloMosaic.PureOps.Ideal
import Idealize.ShloMosaic.PureOps.Ideal.Laws

noncomputable section

namespace Cert.Mlp

open Idealize.ShloMosaic

/-- The maximum of a row, started from the float −∞. -/
def rowMax {K : Nat} (f : Fin K → EReal) : EReal :=
  (Finset.univ : Finset (Fin K)).fold max (Ideal.ofBits .f32 0xFF800000#32) f

/-- The absolute value on the extended reals. -/
def absE (a : EReal) : EReal := max a (-a)

/-- Rounding to the nearest integer, ties to even; the infinities are fixed. -/
def rnd (a : EReal) : EReal := Ideal.liftRound Ideal.roundHalfEven a

/-- A row's quantisation scale: its largest magnitude over 127, floored at ε. -/
def scaleOf {K : Nat} (f : Fin K → EReal) : EReal :=
  max (Ideal.div (rowMax fun k => absE (f k)) (Ideal.ofBits .f32 0x42FE0000#32)) (Ideal.ofBits .f32 0x322BCC77#32)

/-- The clip to [−127, 127]. -/
def clipQ (a : EReal) : EReal :=
  min (Ideal.ofBits .f32 0x42FE0000#32) (max (Ideal.ofBits .f32 0xC2FE0000#32) a)

/-- Entry `k` of the quantised row. -/
def quant {K : Nat} (f : Fin K → EReal) (k : Fin K) : EReal :=
  clipQ (rnd (Ideal.div (f k) (scaleOf f))) * scaleOf f

/-- The same with the rounding in its straight-through spelling `a + (round a − a)`. -/
def quantSte {K : Nat} (f : Fin K → EReal) (k : Fin K) : EReal :=
  clipQ (Ideal.div (f k) (scaleOf f) + (rnd (Ideal.div (f k) (scaleOf f)) - Ideal.div (f k) (scaleOf f))) * scaleOf f

/-- `g · σ(g)` with the logistic function spelled `1 / (1 + e^(−g))`. -/
def silu (g : EReal) : EReal :=
  g * Ideal.div (Ideal.ofBits .f32 0x3F800000#32) (Ideal.ofBits .f32 0x3F800000#32 + Ideal.exp (-g))

/-- The contraction of two rows. -/
def dotRow {K : Nat} (a b : Fin K → EReal) : EReal := ∑ k : Fin K, a k * b k

/-- Hidden entry `j` of a token row `x`: `silu (q(x)·q(Wg_j)) · (q(x)·q(Wu_j))`. -/
def hid {H I : Nat} (x : Fin H → EReal) (wg wu : Fin I → Fin H → EReal) (j : Fin I) : EReal :=
  silu (dotRow (quant x) (quant (wg j))) * dotRow (quant x) (quant (wu j))

/-- Result entry `o` of a token row `x`: `q(h)·q(Wd_o)`. -/
def outRow {H I : Nat} (x : Fin H → EReal) (wg wu : Fin I → Fin H → EReal) (wd : Fin H → Fin I → EReal) (o : Fin H) : EReal :=
  dotRow (quant (hid x wg wu)) (quant (wd o))

/-- The hidden entry with every rounding in the straight-through spelling. -/
def hidSte {H I : Nat} (x : Fin H → EReal) (wg wu : Fin I → Fin H → EReal) (j : Fin I) : EReal :=
  silu (dotRow (quantSte x) (quantSte (wg j))) * dotRow (quantSte x) (quantSte (wu j))

/-- The result entry with every rounding in the straight-through spelling. -/
def outRowSte {H I : Nat} (x : Fin H → EReal) (wg wu : Fin I → Fin H → EReal) (wd : Fin H → Fin I → EReal) (o : Fin H) : EReal :=
  dotRow (quantSte (hidSte x wg wu)) (quantSte (wd o))

end Cert.Mlp

end
-- ==== Proof.ArrSpec.lean ====
/-
  The intermediate arrays of the kernel's pipeline, each as one function of the arrays it is computed from.

  `quantArr A` is `A` quantised row by row; `hidArr QX QG QU` is the hidden activation array, entry `(n, j)` being
  `silu (QX_n · QG_j) · (QX_n · QU_j)` of rows; `downArr QH QD` is the down projection, entry `(n, o)` being `QH_n · QD_o`.
-/
import proofs.«119847_j17025250361715_2_alg».proof.Proof.QuantSpec
import Idealize.ShloMosaic.Lib.ValueIdx

noncomputable section

namespace Cert.Mlp.Kern

open Idealize.ShloMosaic Idealize.ShloMosaic.ValueIdx

/-- A whole array quantised row by row: entry `(r, q)` is entry `q` of the quantised row `r`. -/
def quantArr {RT K : Nat} (A : (⟨2, ![RT, K]⟩ : Shape).Idx → EReal) : (⟨2, ![RT, K]⟩ : Shape).Idx → EReal :=
  fun i => quant (fun k : Fin K => A (ix2 (⟨(i 0).val, (i 0).isLt⟩ : Fin RT) k)) (⟨(i 1).val, (i 1).isLt⟩ : Fin K)

theorem quantArr_ix2 {RT K : Nat} (A : (⟨2, ![RT, K]⟩ : Shape).Idx → EReal) (r : Fin RT) (q : Fin K) :
    quantArr A (ix2 r q) = quant (fun k : Fin K => A (ix2 r k)) q := rfl

/-- The hidden activations: entry `(n, j)` is `silu (QX_n · QG_j) · (QX_n · QU_j)`. -/
def hidArr {N H I : Nat} (QX : (⟨2, ![N, H]⟩ : Shape).Idx → EReal) (QG QU : (⟨2, ![I, H]⟩ : Shape).Idx → EReal) :
    (⟨2, ![N, I]⟩ : Shape).Idx → EReal :=
  fun i => silu (dotRow (fun k : Fin H => QX (ix2 (⟨(i 0).val, (i 0).isLt⟩ : Fin N) k))
                        (fun k : Fin H => QG (ix2 (⟨(i 1).val, (i 1).isLt⟩ : Fin I) k)))
           * dotRow (fun k : Fin H => QX (ix2 (⟨(i 0).val, (i 0).isLt⟩ : Fin N) k))
                    (fun k : Fin H => QU (ix2 (⟨(i 1).val, (i 1).isLt⟩ : Fin I) k))

theorem hidArr_ix2 {N H I : Nat} (QX : (⟨2, ![N, H]⟩ : Shape).Idx → EReal) (QG QU : (⟨2, ![I, H]⟩ : Shape).Idx → EReal)
    (n : Fin N) (j : Fin I) :
    hidArr QX QG QU (ix2 n j)
      = silu (dotRow (fun k : Fin H => QX (ix2 n k)) (fun k : Fin H => QG (ix2 j k)))
        * dotRow (fun k : Fin H => QX (ix2 n k)) (fun k : Fin H => QU (ix2 j k)) := rfl

/-- The down projection: entry `(n, o)` is `QH_n · QD_o`. -/
def downArr {N H I : Nat} (QH : (⟨2, ![N, I]⟩ : Shape).Idx → EReal) (QD : (⟨2, ![H, I]⟩ : Shape).Idx → EReal) :
    (⟨2, ![N, H]⟩ : Shape).Idx → EReal :=
  fun i => dotRow (fun j : Fin I => QH (ix2 (⟨(i 0).val, (i 0).isLt⟩ : Fin N) j))
                  (fun j : Fin I => QD (ix2 (⟨(i 1).val, (i 1).isLt⟩ : Fin H) j))

theorem downArr_ix2 {N H I : Nat} (QH : (⟨2, ![N, I]⟩ : Shape).Idx → EReal) (QD : (⟨2, ![H, I]⟩ : Shape).Idx → EReal)
    (n : Fin N) (o : Fin H) :
    downArr QH QD (ix2 n o) = dotRow (fun j : Fin I => QH (ix2 n j)) (fun j : Fin I => QD (ix2 o j)) := rfl

/-- The zero offset of a whole-block access. -/
theorem hz2 : (![0, 0] : Fin 2 → Nat) = fun _ => 0 := funext fun a => by fin_cases a <;> rfl

end Cert.Mlp.Kern

end
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.GcnValue

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GcnValue

end
-- ==== Proof.QuantBlocks.lean ====
/-
  The quantisation kernel's stored block, read at an index.

  The body loads a block of rows, takes each row's largest magnitude (a lane maximum started from −∞), divides by 127,
  floors at ε to get the row's scale as a column, broadcasts the column along the lanes, and stores
  `clip (round (x / scale)) · scale`; the final change of float format is the identity on the extended reals.
  So the stored value at `(p, q)` is entry `q` of the quantised row `p` of the block.
-/
import proofs.«119847_j17025250361715_2_alg».proof.Proof.Gen.KernelIdeal.Skeleton
import proofs.«119847_j17025250361715_2_alg».proof.Proof.QuantSpec
import proofs.«119847_j17025250361715_2_alg».proof.Proof.LibColumns
import Idealize.ShloMosaic.Lib.ValueIdx
import Idealize.ShloMosaic.Lib.Pipeline.Value
import Idealize.ShloMosaic.PureOps.Ideal.Laws

set_option maxRecDepth 16384

noncomputable section

namespace Cert.Mlp.Kern

open Cert.KernelIdeal Cert.KernelIdeal.Gen Idealize.ShloMosaic Idealize.ShloMosaic.ValueIdx

variable [Cert.KernelIdeal.Facts]

set_option maxRecDepth 65536 in
/-- A block's lane maximum at row `p` is the row's maximum. -/
theorem laneMax_512 (v : FVec Ideal S512x2048 .f32) (hφ : FKind.Formats .f32) (hacc : (0xFF800000#32 : BitVec 32) = 0xFF800000#32) (p : Fin 512) :
    multiReduction (F := Ideal) .maximumf [1] S512 v 0xFF800000#32 reduces_S512x2048_S512 hφ hacc (ix1 p)
      = rowMax (fun k : Fin 2048 => v (ix2 p k)) := by
  refine (Ideal.multiReduction_maximumf_single v 0xFF800000#32 reduces_S512x2048_S512 hφ hacc (ix1 p)).trans ?_
  unfold rowMax
  have hf : (v ∘ reduces_S512x2048_S512.lift (ix1 p)) = fun k : Fin 2048 => v (ix2 p k) :=
    funext fun k => congrArg v (by funext c; apply Fin.ext; match c with | ⟨0, _⟩ => rfl | ⟨1, _⟩ => rfl)
  exact congrArg (fun f => Finset.fold max (Ideal.ofBits .f32 0xFF800000#32) f (Finset.univ : Finset (Fin 2048))) hf

set_option maxRecDepth 65536 in
/-- The block's scale column (largest magnitude of each row over 127, floored at ε), broadcast along the lanes. -/
def scaleBlock_512 (x0 : FVec Ideal S512x2048 .f32) (hφ : FKind.Formats .f32) (hacc : (0xFF800000#32 : BitVec 32) = 0xFF800000#32) : FVec Ideal S512x2048 .f32 :=
  broadcastTo S512x2048
    (maximumf
      (divf
        (shapeCast S512x1
          (multiReduction (F := Ideal) .maximumf [1] S512 (absf x0) 0xFF800000#32 reduces_S512x2048_S512 hφ hacc)
          shapeCasts_S512_S512x1)
        (broadcast S512x1 (FloatOps.ofBits (F := Ideal) .f32 0x42FE0000#32)))
      (broadcast S512x1 (FloatOps.ofBits (F := Ideal) .f32 0x322BCC77#32)))
    broadcasts_S512x1_S512x2048

/-- It reads, at `(p, q)`, the scale of row `p`. -/
theorem scaleBlock_512_at (x0 : FVec Ideal S512x2048 .f32) (hφ : FKind.Formats .f32) (hacc : (0xFF800000#32 : BitVec 32) = 0xFF800000#32) (p : Fin 512) (q : Fin 2048) :
    scaleBlock_512 x0 hφ hacc (ix2 p q) = scaleOf (fun k : Fin 2048 => x0 (ix2 p k)) := by
  unfold scaleBlock_512
  refine (Cert.GcnValue.broadcastTo_a1_ab_apply _ broadcasts_S512x1_S512x2048 p q).trans ?_
  show max (Ideal.div (shapeCast S512x1 _ shapeCasts_S512_S512x1 (ix2 p (0 : Fin 1))) (Ideal.ofBits .f32 0x42FE0000#32))
      (Ideal.ofBits .f32 0x322BCC77#32) = _
  rw [Cert.GcnValue.shapeCast_a_a1_apply _ shapeCasts_S512_S512x1 p 0, laneMax_512 _ hφ hacc p]
  rfl

/-- Clip-round-rescale of an entry by its row's scale block is the quantised row's entry. -/
theorem quantBlock_512_at (x0 : FVec Ideal S512x2048 .f32) (hφ : FKind.Formats .f32) (hacc : (0xFF800000#32 : BitVec 32) = 0xFF800000#32) (p : Fin 512) (q : Fin 2048) :
    min (FloatOps.ofBits (F := Ideal) .f32 0x42FE0000#32)
        (max (FloatOps.ofBits (F := Ideal) .f32 0xC2FE0000#32)
          (Ideal.liftRound Ideal.roundHalfEven (Ideal.div (x0 (ix2 p q)) (scaleBlock_512 x0 hφ hacc (ix2 p q)))))
      * scaleBlock_512 x0 hφ hacc (ix2 p q)
      = quant (fun k : Fin 2048 => x0 (ix2 p k)) q := by
  rw [scaleBlock_512_at]; rfl

/-- Rounding a vector reads pointwise. -/
theorem roundevenAt_512 (v : FVec Ideal S512x2048 .f32) (i : S512x2048.Idx) :
    roundeven v i = Ideal.liftRound Ideal.roundHalfEven (v i) := rfl

/-- The body's stored value at `(p, q)` of a block is the quantised row `p` at `q`. -/
theorem k0_pay1_at (x0 : FVec Ideal S512x2048 .f32) (p : Fin 512) (q : Fin 2048) :
    k0_pay1 (F := Ideal) x0 (ix2 p q) = quant (fun k : Fin 2048 => x0 (ix2 p k)) q := by
  unfold k0_pay1
  simp only [shapeCast_self, truncf_apply, mulf_apply, minimumf_apply, maximumf_apply, broadcast_apply, roundevenAt_512, divf_apply]
  exact quantBlock_512_at x0 _ _ p q

/-- The body's stored value at `(p, q)` of a block is the quantised row `p` at `q`. -/
theorem k1_pay1_at (x0 : FVec Ideal S512x2048 .f32) (p : Fin 512) (q : Fin 2048) :
    k1_pay1 (F := Ideal) x0 (ix2 p q) = quant (fun k : Fin 2048 => x0 (ix2 p k)) q := by
  unfold k1_pay1
  simp only [shapeCast_self, truncf_apply, mulf_apply, minimumf_apply, maximumf_apply, broadcast_apply, roundevenAt_512, divf_apply]
  exact quantBlock_512_at x0 _ _ p q

/-- The body's stored value at `(p, q)` of a block is the quantised row `p` at `q`. -/
theorem k3_pay1_at (x0 : FVec Ideal S512x2048 .f32) (p : Fin 512) (q : Fin 2048) :
    k3_pay1 (F := Ideal) x0 (ix2 p q) = quant (fun k : Fin 2048 => x0 (ix2 p k)) q := by
  unfold k3_pay1
  simp only [shapeCast_self, truncf_apply, mulf_apply, minimumf_apply, maximumf_apply, broadcast_apply, roundevenAt_512, divf_apply]
  exact quantBlock_512_at x0 _ _ p q

set_option maxRecDepth 65536 in
/-- A block's lane maximum at row `p` is the row's maximum. -/
theorem laneMax_128 (v : FVec Ideal S128x6144 .f32) (hφ : FKind.Formats .f32) (hacc : (0xFF800000#32 : BitVec 32) = 0xFF800000#32) (p : Fin 128) :
    multiReduction (F := Ideal) .maximumf [1] S128 v 0xFF800000#32 reduces_S128x6144_S128 hφ hacc (ix1 p)
      = rowMax (fun k : Fin 6144 => v (ix2 p k)) := by
  refine (Ideal.multiReduction_maximumf_single v 0xFF800000#32 reduces_S128x6144_S128 hφ hacc (ix1 p)).trans ?_
  unfold rowMax
  have hf : (v ∘ reduces_S128x6144_S128.lift (ix1 p)) = fun k : Fin 6144 => v (ix2 p k) :=
    funext fun k => congrArg v (by funext c; apply Fin.ext; match c with | ⟨0, _⟩ => rfl | ⟨1, _⟩ => rfl)
  exact congrArg (fun f => Finset.fold max (Ideal.ofBits .f32 0xFF800000#32) f (Finset.univ : Finset (Fin 6144))) hf

set_option maxRecDepth 65536 in
/-- The block's scale column (largest magnitude of each row over 127, floored at ε), broadcast along the lanes. -/
def scaleBlock_128 (x0 : FVec Ideal S128x6144 .f32) (hφ : FKind.Formats .f32) (hacc : (0xFF800000#32 : BitVec 32) = 0xFF800000#32) : FVec Ideal S128x6144 .f32 :=
  broadcastTo S128x6144
    (maximumf
      (divf
        (shapeCast S128x1
          (multiReduction (F := Ideal) .maximumf [1] S128 (absf x0) 0xFF800000#32 reduces_S128x6144_S128 hφ hacc)
          shapeCasts_S128_S128x1)
        (broadcast S128x1 (FloatOps.ofBits (F := Ideal) .f32 0x42FE0000#32)))
      (broadcast S128x1 (FloatOps.ofBits (F := Ideal) .f32 0x322BCC77#32)))
    broadcasts_S128x1_S128x6144

/-- It reads, at `(p, q)`, the scale of row `p`. -/
theorem scaleBlock_128_at (x0 : FVec Ideal S128x6144 .f32) (hφ : FKind.Formats .f32) (hacc : (0xFF800000#32 : BitVec 32) = 0xFF800000#32) (p : Fin 128) (q : Fin 6144) :
    scaleBlock_128 x0 hφ hacc (ix2 p q) = scaleOf (fun k : Fin 6144 => x0 (ix2 p k)) := by
  unfold scaleBlock_128
  refine (Cert.GcnValue.broadcastTo_a1_ab_apply _ broadcasts_S128x1_S128x6144 p q).trans ?_
  show max (Ideal.div (shapeCast S128x1 _ shapeCasts_S128_S128x1 (ix2 p (0 : Fin 1))) (Ideal.ofBits .f32 0x42FE0000#32))
      (Ideal.ofBits .f32 0x322BCC77#32) = _
  rw [Cert.GcnValue.shapeCast_a_a1_apply _ shapeCasts_S128_S128x1 p 0, laneMax_128 _ hφ hacc p]
  rfl

/-- Clip-round-rescale of an entry by its row's scale block is the quantised row's entry. -/
theorem quantBlock_128_at (x0 : FVec Ideal S128x6144 .f32) (hφ : FKind.Formats .f32) (hacc : (0xFF800000#32 : BitVec 32) = 0xFF800000#32) (p : Fin 128) (q : Fin 6144) :
    min (FloatOps.ofBits (F := Ideal) .f32 0x42FE0000#32)
        (max (FloatOps.ofBits (F := Ideal) .f32 0xC2FE0000#32)
          (Ideal.liftRound Ideal.roundHalfEven (Ideal.div (x0 (ix2 p q)) (scaleBlock_128 x0 hφ hacc (ix2 p q)))))
      * scaleBlock_128 x0 hφ hacc (ix2 p q)
      = quant (fun k : Fin 6144 => x0 (ix2 p k)) q := by
  rw [scaleBlock_128_at]; rfl

/-- Rounding a vector reads pointwise. -/
theorem roundevenAt_128 (v : FVec Ideal S128x6144 .f32) (i : S128x6144.Idx) :
    roundeven v i = Ideal.liftRound Ideal.roundHalfEven (v i) := rfl

/-- The body's stored value at `(p, q)` of a block is the quantised row `p` at `q`. -/
theorem k2_pay1_at (x0 : FVec Ideal S128x6144 .f32) (p : Fin 128) (q : Fin 6144) :
    k2_pay1 (F := Ideal) x0 (ix2 p q) = quant (fun k : Fin 6144 => x0 (ix2 p k)) q := by
  unfold k2_pay1
  simp only [shapeCast_self, truncf_apply, mulf_apply, minimumf_apply, maximumf_apply, broadcast_apply, roundevenAt_128, divf_apply]
  exact quantBlock_128_at x0 _ _ p q

/-- The body's stored value at `(p, q)` of a block is the quantised row `p` at `q`. -/
theorem k5_pay1_at (x0 : FVec Ideal S128x6144 .f32) (p : Fin 128) (q : Fin 6144) :
    k5_pay1 (F := Ideal) x0 (ix2 p q) = quant (fun k : Fin 6144 => x0 (ix2 p k)) q := by
  unfold k5_pay1
  simp only [shapeCast_self, truncf_apply, mulf_apply, minimumf_apply, maximumf_apply, broadcast_apply, roundevenAt_128, divf_apply]
  exact quantBlock_128_at x0 _ _ p q

end Cert.Mlp.Kern

end
-- ==== Proof.RegionsQuant.lean ====
/-
  The five quantisation regions, each as one whole-array function.

  Every such pallas_call walks a one-dimensional grid down the rows of its input array; point `t` loads a block of whole
  rows, and writes back the block of their quantisations. A row's quantisation depends on that row only, so the
  blocks written back are the blocks of ONE array, the input quantised row by row, and they tile the output array.
-/
import proofs.«119847_j17025250361715_2_alg».proof.Proof.Gen.KernelIdeal.Frame
import proofs.«119847_j17025250361715_2_alg».proof.Proof.ArrSpec
import proofs.«119847_j17025250361715_2_alg».proof.Proof.QuantBlocks
import Idealize.ShloMosaic.Lib.ValueIdx
import Idealize.ShloMosaic.Lib.Pipeline.Value

set_option maxRecDepth 16384

noncomputable section

namespace Cert.Mlp.Kern

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable [Cert.KernelIdeal.Facts]

/-! ## Region 0: the rows of `main_arg1`, 512 at a time, quantised into `main_v1` -/

section Region0
variable (V : (c : Dev nD) → (b : Ref sig .tc) → Buf (Elt Ideal) ((c : Thread nD τ).loc b))

/-- The printed index maps over the grid: input and output blocks move together down the rows, and neither moves along the row. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) < 12 :=
  (by decide +kernel : ∀ t : Fin grid0.N, _)

/-- Every row block is some point's. -/
theorem idx_onto0 : ∀ q0 : Fin 12, ∃ t : Fin cfg0.N, win0_1.index t = ![q0.val, 0] :=
  (by decide +kernel : ∀ q0 : Fin 12, ∃ t : Fin grid0.N, win0_1.index t = ![q0.val, 0])

/-- What point `t` writes back is its block of the row-quantised input array. -/
theorem flushed0 (c : Dev nD) (t : Fin cfg0.N) :
    (dat0 V c).flushed 1 t
      = ((cfg0.win 1).blk t).view.read (Elt Ideal) (quantArr (RT := 6144) (K := 2048) (V c main_arg1)) := by
  show (cfg0.win 1).cut (grid0.coords t) ((dat0 V c).after 1 t) = _
  rw [after0_1]
  unfold out0_1
  rw [View.canon_unit_zero hz2]
  simp only [View.ld_unit_zero (S := S512x2048) hz2]
  obtain ⟨e0, e1, e2, e3⟩ := idx_facts0 t
  have key : ∀ (p : Fin 512) (q : Fin 2048), k0_pay1 (F := Ideal) (iblk0 V c 0 t) (ix2 p q)
      = quantArr (RT := 6144) (K := 2048) (V c main_arg1) (((cfg0.win 1).blk t).view.emb (ix2 p q)) := by
    intro p q
    have hp := p.isLt
    have hq := q.isLt
    refine (k0_pay1_at (iblk0 V c 0 t) p q).trans ?_
    have he : ((cfg0.win 1).blk t).view.emb (ix2 p q)
        = (ix2 (⟨win0_1.index t (0 : Fin 2) * 512 + p.val, by omega⟩ : Fin 6144) q : (⟨2, ![6144, 2048]⟩ : Shape).Idx) := by
      funext a; apply Fin.ext
      match a with
      | ⟨0, _⟩ => show win0_1.index t (0 : Fin 2) * 512 + 1 * p.val = win0_1.index t (0 : Fin 2) * 512 + p.val; omega
      | ⟨1, _⟩ => show win0_1.index t (1 : Fin 2) * 2048 + 1 * q.val = q.val; omega
    rw [he, quantArr_ix2]
    refine congrArg (fun f => quant f q) (funext fun k => ?_)
    have hk := k.isLt
    show V c main_arg1 (((cfg0.win 0).blk t).view.emb (ix2 p k)) = V c main_arg1 (ix2 _ k)
    refine congrArg (V c main_arg1) ?_
    funext a; apply Fin.ext
    match a with
    | ⟨0, _⟩ => show win0_0.index t (0 : Fin 2) * 512 + 1 * p.val = win0_1.index t (0 : Fin 2) * 512 + p.val; omega
    | ⟨1, _⟩ => show win0_0.index t (1 : Fin 2) * 2048 + 1 * k.val = k.val; omega
  refine funext fun (j : S512x2048.Idx) => ?_
  have hj := key (j 0) (j 1)
  rw [eq_ix2 j]
  exact hj

/-- An index of the array is in point `t`'s block iff each coordinate is in the block's range on its axis. -/
theorem mem_blk0 (t : Fin cfg0.N) (i : S6144x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- The row blocks tile the array: row `r` lies in block `r / 512`. -/
theorem cover0 (i : S6144x2048.Idx) :
    ∃ t : Fin cfg0.N, (cfg0.win 1).flush t = true ∧ i ∈ ((cfg0.win 1).blk t).view.set := by
  have hi0 : (i 0).val < 6144 := (i 0).isLt
  have hi1 : (i 1).val < 2048 := (i 1).isLt
  obtain ⟨t, ht⟩ := idx_onto0 ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- After the region its output array is the input array quantised row by row. -/
theorem final0 (c : Dev nD) :
    (dat0 V c).arrAt 1 cfg0.N = quantArr (RT := 6144) (K := 2048) (V c main_arg1) :=
  (dat0 V c).arrAt_eq_of_cover 1 _ (fun t _ => flushed0 V c t) cover0

end Region0

/-! ## Region 1: the rows of `main_arg2`, 512 at a time, quantised into `main_v2` -/

section Region1
variable (V : (c : Dev nD) → (b : Ref sig .tc) → Buf (Elt Ideal) ((c : Thread nD τ).loc b))

/-- The printed index maps over the grid: input and output blocks move together down the rows, and neither moves along the row. -/
theorem idx_facts1 : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) < 12 :=
  (by decide +kernel : ∀ t : Fin grid1.N, _)

/-- Every row block is some point's. -/
theorem idx_onto1 : ∀ q0 : Fin 12, ∃ t : Fin cfg1.N, win1_1.index t = ![q0.val, 0] :=
  (by decide +kernel : ∀ q0 : Fin 12, ∃ t : Fin grid1.N, win1_1.index t = ![q0.val, 0])

/-- What point `t` writes back is its block of the row-quantised input array. -/
theorem flushed1 (c : Dev nD) (t : Fin cfg1.N) :
    (dat1 V c).flushed 1 t
      = ((cfg1.win 1).blk t).view.read (Elt Ideal) (quantArr (RT := 6144) (K := 2048) (V c main_arg2)) := by
  show (cfg1.win 1).cut (grid1.coords t) ((dat1 V c).after 1 t) = _
  rw [after1_1]
  unfold out1_1
  rw [View.canon_unit_zero hz2]
  simp only [View.ld_unit_zero (S := S512x2048) hz2]
  obtain ⟨e0, e1, e2, e3⟩ := idx_facts1 t
  have key : ∀ (p : Fin 512) (q : Fin 2048), k1_pay1 (F := Ideal) (iblk1 V c 0 t) (ix2 p q)
      = quantArr (RT := 6144) (K := 2048) (V c main_arg2) (((cfg1.win 1).blk t).view.emb (ix2 p q)) := by
    intro p q
    have hp := p.isLt
    have hq := q.isLt
    refine (k1_pay1_at (iblk1 V c 0 t) p q).trans ?_
    have he : ((cfg1.win 1).blk t).view.emb (ix2 p q)
        = (ix2 (⟨win1_1.index t (0 : Fin 2) * 512 + p.val, by omega⟩ : Fin 6144) q : (⟨2, ![6144, 2048]⟩ : Shape).Idx) := by
      funext a; apply Fin.ext
      match a with
      | ⟨0, _⟩ => show win1_1.index t (0 : Fin 2) * 512 + 1 * p.val = win1_1.index t (0 : Fin 2) * 512 + p.val; omega
      | ⟨1, _⟩ => show win1_1.index t (1 : Fin 2) * 2048 + 1 * q.val = q.val; omega
    rw [he, quantArr_ix2]
    refine congrArg (fun f => quant f q) (funext fun k => ?_)
    have hk := k.isLt
    show V c main_arg2 (((cfg1.win 0).blk t).view.emb (ix2 p k)) = V c main_arg2 (ix2 _ k)
    refine congrArg (V c main_arg2) ?_
    funext a; apply Fin.ext
    match a with
    | ⟨0, _⟩ => show win1_0.index t (0 : Fin 2) * 512 + 1 * p.val = win1_1.index t (0 : Fin 2) * 512 + p.val; omega
    | ⟨1, _⟩ => show win1_0.index t (1 : Fin 2) * 2048 + 1 * k.val = k.val; omega
  refine funext fun (j : S512x2048.Idx) => ?_
  have hj := key (j 0) (j 1)
  rw [eq_ix2 j]
  exact hj

/-- An index of the array is in point `t`'s block iff each coordinate is in the block's range on its axis. -/
theorem mem_blk1 (t : Fin cfg1.N) (i : S6144x2048.Idx) :
    i ∈ ((cfg1.win 1).blk t).view.set ↔ ∀ a : Fin 2, win1_1.index t a * S512x2048.size a ≤ (i a).val
      ∧ (i a).val < win1_1.index t a * S512x2048.size a + S512x2048.size a := by
  show i ∈ ((View.whole main_v2).slice (win1_1.rect t)).set ↔ _
  rw [View.set_slice_whole, Rect.mem_set_unit]
  exact Iff.rfl

/-- The row blocks tile the array: row `r` lies in block `r / 512`. -/
theorem cover1 (i : S6144x2048.Idx) :
    ∃ t : Fin cfg1.N, (cfg1.win 1).flush t = true ∧ i ∈ ((cfg1.win 1).blk t).view.set := by
  have hi0 : (i 0).val < 6144 := (i 0).isLt
  have hi1 : (i 1).val < 2048 := (i 1).isLt
  obtain ⟨t, ht⟩ := idx_onto1 ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 2048 ≤ (i 1).val ∧ (i 1).val < win1_1.index t (1 : Fin 2) * 2048 + 2048; omega

/-- After the region its output array is the input array quantised row by row. -/
theorem final1 (c : Dev nD) :
    (dat1 V c).arrAt 1 cfg1.N = quantArr (RT := 6144) (K := 2048) (V c main_arg2) :=
  (dat1 V c).arrAt_eq_of_cover 1 _ (fun t _ => flushed1 V c t) cover1

end Region1

/-! ## Region 2: the rows of `main_arg3`, 128 at a time, quantised into `main_v3` -/

section Region2
variable (V : (c : Dev nD) → (b : Ref sig .tc) → Buf (Elt Ideal) ((c : Thread nD τ).loc b))

/-- The printed index maps over the grid: input and output blocks move together down the rows, and neither moves along the row. -/
theorem idx_facts2 : ∀ t : Fin cfg2.N, win2_0.index t (0 : Fin 2) = win2_1.index t (0 : Fin 2)
    ∧ win2_0.index t (1 : Fin 2) = 0 ∧ win2_1.index t (1 : Fin 2) = 0 ∧ win2_1.index t (0 : Fin 2) < 16 :=
  (by decide +kernel : ∀ t : Fin grid2.N, _)

/-- Every row block is some point's. -/
theorem idx_onto2 : ∀ q0 : Fin 16, ∃ t : Fin cfg2.N, win2_1.index t = ![q0.val, 0] :=
  (by decide +kernel : ∀ q0 : Fin 16, ∃ t : Fin grid2.N, win2_1.index t = ![q0.val, 0])

/-- What point `t` writes back is its block of the row-quantised input array. -/
theorem flushed2 (c : Dev nD) (t : Fin cfg2.N) :
    (dat2 V c).flushed 1 t
      = ((cfg2.win 1).blk t).view.read (Elt Ideal) (quantArr (RT := 2048) (K := 6144) (V c main_arg3)) := by
  show (cfg2.win 1).cut (grid2.coords t) ((dat2 V c).after 1 t) = _
  rw [after2_1]
  unfold out2_1
  rw [View.canon_unit_zero hz2]
  simp only [View.ld_unit_zero (S := S128x6144) hz2]
  obtain ⟨e0, e1, e2, e3⟩ := idx_facts2 t
  have key : ∀ (p : Fin 128) (q : Fin 6144), k2_pay1 (F := Ideal) (iblk2 V c 0 t) (ix2 p q)
      = quantArr (RT := 2048) (K := 6144) (V c main_arg3) (((cfg2.win 1).blk t).view.emb (ix2 p q)) := by
    intro p q
    have hp := p.isLt
    have hq := q.isLt
    refine (k2_pay1_at (iblk2 V c 0 t) p q).trans ?_
    have he : ((cfg2.win 1).blk t).view.emb (ix2 p q)
        = (ix2 (⟨win2_1.index t (0 : Fin 2) * 128 + p.val, by omega⟩ : Fin 2048) q : (⟨2, ![2048, 6144]⟩ : Shape).Idx) := by
      funext a; apply Fin.ext
      match a with
      | ⟨0, _⟩ => show win2_1.index t (0 : Fin 2) * 128 + 1 * p.val = win2_1.index t (0 : Fin 2) * 128 + p.val; omega
      | ⟨1, _⟩ => show win2_1.index t (1 : Fin 2) * 6144 + 1 * q.val = q.val; omega
    rw [he, quantArr_ix2]
    refine congrArg (fun f => quant f q) (funext fun k => ?_)
    have hk := k.isLt
    show V c main_arg3 (((cfg2.win 0).blk t).view.emb (ix2 p k)) = V c main_arg3 (ix2 _ k)
    refine congrArg (V c main_arg3) ?_
    funext a; apply Fin.ext
    match a with
    | ⟨0, _⟩ => show win2_0.index t (0 : Fin 2) * 128 + 1 * p.val = win2_1.index t (0 : Fin 2) * 128 + p.val; omega
    | ⟨1, _⟩ => show win2_0.index t (1 : Fin 2) * 6144 + 1 * k.val = k.val; omega
  refine funext fun (j : S128x6144.Idx) => ?_
  have hj := key (j 0) (j 1)
  rw [eq_ix2 j]
  exact hj

/-- An index of the array is in point `t`'s block iff each coordinate is in the block's range on its axis. -/
theorem mem_blk2 (t : Fin cfg2.N) (i : S2048x6144.Idx) :
    i ∈ ((cfg2.win 1).blk t).view.set ↔ ∀ a : Fin 2, win2_1.index t a * S128x6144.size a ≤ (i a).val
      ∧ (i a).val < win2_1.index t a * S128x6144.size a + S128x6144.size a := by
  show i ∈ ((View.whole main_v3).slice (win2_1.rect t)).set ↔ _
  rw [View.set_slice_whole, Rect.mem_set_unit]
  exact Iff.rfl

/-- The row blocks tile the array: row `r` lies in block `r / 128`. -/
theorem cover2 (i : S2048x6144.Idx) :
    ∃ t : Fin cfg2.N, (cfg2.win 1).flush t = true ∧ i ∈ ((cfg2.win 1).blk t).view.set := by
  have hi0 : (i 0).val < 2048 := (i 0).isLt
  have hi1 : (i 1).val < 6144 := (i 1).isLt
  obtain ⟨t, ht⟩ := idx_onto2 ⟨(i 0).val / 128, by omega⟩
  have q0 : win2_1.index t (0 : Fin 2) = (i 0).val / 128 := congrFun ht 0
  have q1 : win2_1.index t (1 : Fin 2) = 0 := congrFun ht 1
  refine ⟨t, flush2_1 t, ?_⟩
  rw [mem_blk2]
  intro a
  match a with
  | ⟨0, _⟩ => show win2_1.index t (0 : Fin 2) * 128 ≤ (i 0).val ∧ (i 0).val < win2_1.index t (0 : Fin 2) * 128 + 128; omega
  | ⟨1, _⟩ => show win2_1.index t (1 : Fin 2) * 6144 ≤ (i 1).val ∧ (i 1).val < win2_1.index t (1 : Fin 2) * 6144 + 6144; omega

/-- After the region its output array is the input array quantised row by row. -/
theorem final2 (c : Dev nD) :
    (dat2 V c).arrAt 1 cfg2.N = quantArr (RT := 2048) (K := 6144) (V c main_arg3) :=
  (dat2 V c).arrAt_eq_of_cover 1 _ (fun t _ => flushed2 V c t) cover2

end Region2

/-! ## Region 3: the rows of `main_v0`, 512 at a time, quantised into `main_v4` -/

section Region3
variable (V : (c : Dev nD) → (b : Ref sig .tc) → Buf (Elt Ideal) ((c : Thread nD τ).loc b))

/-- The printed index maps over the grid: input and output blocks move together down the rows, and neither moves along the row. -/
theorem idx_facts3 : ∀ t : Fin cfg3.N, win3_0.index t (0 : Fin 2) = win3_1.index t (0 : Fin 2)
    ∧ win3_0.index t (1 : Fin 2) = 0 ∧ win3_1.index t (1 : Fin 2) = 0 ∧ win3_1.index t (0 : Fin 2) < 16 :=
  (by decide +kernel : ∀ t : Fin grid3.N, _)

/-- Every row block is some point's. -/
theorem idx_onto3 : ∀ q0 : Fin 16, ∃ t : Fin cfg3.N, win3_1.index t = ![q0.val, 0] :=
  (by decide +kernel : ∀ q0 : Fin 16, ∃ t : Fin grid3.N, win3_1.index t = ![q0.val, 0])

/-- What point `t` writes back is its block of the row-quantised input array. -/
theorem flushed3 (c : Dev nD) (t : Fin cfg3.N) :
    (dat3 V c).flushed 1 t
      = ((cfg3.win 1).blk t).view.read (Elt Ideal) (quantArr (RT := 8192) (K := 2048) (V c main_v0)) := by
  show (cfg3.win 1).cut (grid3.coords t) ((dat3 V c).after 1 t) = _
  rw [after3_1]
  unfold out3_1
  rw [View.canon_unit_zero hz2]
  simp only [View.ld_unit_zero (S := S512x2048) hz2]
  obtain ⟨e0, e1, e2, e3⟩ := idx_facts3 t
  have key : ∀ (p : Fin 512) (q : Fin 2048), k3_pay1 (F := Ideal) (iblk3 V c 0 t) (ix2 p q)
      = quantArr (RT := 8192) (K := 2048) (V c main_v0) (((cfg3.win 1).blk t).view.emb (ix2 p q)) := by
    intro p q
    have hp := p.isLt
    have hq := q.isLt
    refine (k3_pay1_at (iblk3 V c 0 t) p q).trans ?_
    have he : ((cfg3.win 1).blk t).view.emb (ix2 p q)
        = (ix2 (⟨win3_1.index t (0 : Fin 2) * 512 + p.val, by omega⟩ : Fin 8192) q : (⟨2, ![8192, 2048]⟩ : Shape).Idx) := by
      funext a; apply Fin.ext
      match a with
      | ⟨0, _⟩ => show win3_1.index t (0 : Fin 2) * 512 + 1 * p.val = win3_1.index t (0 : Fin 2) * 512 + p.val; omega
      | ⟨1, _⟩ => show win3_1.index t (1 : Fin 2) * 2048 + 1 * q.val = q.val; omega
    rw [he, quantArr_ix2]
    refine congrArg (fun f => quant f q) (funext fun k => ?_)
    have hk := k.isLt
    show V c main_v0 (((cfg3.win 0).blk t).view.emb (ix2 p k)) = V c main_v0 (ix2 _ k)
    refine congrArg (V c main_v0) ?_
    funext a; apply Fin.ext
    match a with
    | ⟨0, _⟩ => show win3_0.index t (0 : Fin 2) * 512 + 1 * p.val = win3_1.index t (0 : Fin 2) * 512 + p.val; omega
    | ⟨1, _⟩ => show win3_0.index t (1 : Fin 2) * 2048 + 1 * k.val = k.val; omega
  refine funext fun (j : S512x2048.Idx) => ?_
  have hj := key (j 0) (j 1)
  rw [eq_ix2 j]
  exact hj

/-- An index of the array is in point `t`'s block iff each coordinate is in the block's range on its axis. -/
theorem mem_blk3 (t : Fin cfg3.N) (i : S8192x2048.Idx) :
    i ∈ ((cfg3.win 1).blk t).view.set ↔ ∀ a : Fin 2, win3_1.index t a * S512x2048.size a ≤ (i a).val
      ∧ (i a).val < win3_1.index t a * S512x2048.size a + S512x2048.size a := by
  show i ∈ ((View.whole main_v4).slice (win3_1.rect t)).set ↔ _
  rw [View.set_slice_whole, Rect.mem_set_unit]
  exact Iff.rfl

/-- The row blocks tile the array: row `r` lies in block `r / 512`. -/
theorem cover3 (i : S8192x2048.Idx) :
    ∃ t : Fin cfg3.N, (cfg3.win 1).flush t = true ∧ i ∈ ((cfg3.win 1).blk t).view.set := by
  have hi0 : (i 0).val < 8192 := (i 0).isLt
  have hi1 : (i 1).val < 2048 := (i 1).isLt
  obtain ⟨t, ht⟩ := idx_onto3 ⟨(i 0).val / 512, by omega⟩
  have q0 : win3_1.index t (0 : Fin 2) = (i 0).val / 512 := congrFun ht 0
  have q1 : win3_1.index t (1 : Fin 2) = 0 := congrFun ht 1
  refine ⟨t, flush3_1 t, ?_⟩
  rw [mem_blk3]
  intro a
  match a with
  | ⟨0, _⟩ => show win3_1.index t (0 : Fin 2) * 512 ≤ (i 0).val ∧ (i 0).val < win3_1.index t (0 : Fin 2) * 512 + 512; omega
  | ⟨1, _⟩ => show win3_1.index t (1 : Fin 2) * 2048 ≤ (i 1).val ∧ (i 1).val < win3_1.index t (1 : Fin 2) * 2048 + 2048; omega

/-- After the region its output array is the input array quantised row by row. -/
theorem final3 (c : Dev nD) :
    (dat3 V c).arrAt 1 cfg3.N = quantArr (RT := 8192) (K := 2048) (V c main_v0) :=
  (dat3 V c).arrAt_eq_of_cover 1 _ (fun t _ => flushed3 V c t) cover3

end Region3

/-! ## Region 5: the rows of `main_v5`, 128 at a time, quantised into `main_v6` -/

section Region5
variable (V : (c : Dev nD) → (b : Ref sig .tc) → Buf (Elt Ideal) ((c : Thread nD τ).loc b))

/-- The printed index maps over the grid: input and output blocks move together down the rows, and neither moves along the row. -/
theorem idx_facts5 : ∀ t : Fin cfg5.N, win5_0.index t (0 : Fin 2) = win5_1.index t (0 : Fin 2)
    ∧ win5_0.index t (1 : Fin 2) = 0 ∧ win5_1.index t (1 : Fin 2) = 0 ∧ win5_1.index t (0 : Fin 2) < 64 :=
  (by decide +kernel : ∀ t : Fin grid5.N, _)

/-- Every row block is some point's. -/
theorem idx_onto5 : ∀ q0 : Fin 64, ∃ t : Fin cfg5.N, win5_1.index t = ![q0.val, 0] :=
  (by decide +kernel : ∀ q0 : Fin 64, ∃ t : Fin grid5.N, win5_1.index t = ![q0.val, 0])

/-- What point `t` writes back is its block of the row-quantised input array. -/
theorem flushed5 (c : Dev nD) (t : Fin cfg5.N) :
    (dat5 V c).flushed 1 t
      = ((cfg5.win 1).blk t).view.read (Elt Ideal) (quantArr (RT := 8192) (K := 6144) (V c main_v5)) := by
  show (cfg5.win 1).cut (grid5.coords t) ((dat5 V c).after 1 t) = _
  rw [after5_1]
  unfold out5_1
  rw [View.canon_unit_zero hz2]
  simp only [View.ld_unit_zero (S := S128x6144) hz2]
  obtain ⟨e0, e1, e2, e3⟩ := idx_facts5 t
  have key : ∀ (p : Fin 128) (q : Fin 6144), k5_pay1 (F := Ideal) (iblk5 V c 0 t) (ix2 p q)
      = quantArr (RT := 8192) (K := 6144) (V c main_v5) (((cfg5.win 1).blk t).view.emb (ix2 p q)) := by
    intro p q
    have hp := p.isLt
    have hq := q.isLt
    refine (k5_pay1_at (iblk5 V c 0 t) p q).trans ?_
    have he : ((cfg5.win 1).blk t).view.emb (ix2 p q)
        = (ix2 (⟨win5_1.index t (0 : Fin 2) * 128 + p.val, by omega⟩ : Fin 8192) q : (⟨2, ![8192, 6144]⟩ : Shape).Idx) := by
      funext a; apply Fin.ext
      match a with
      | ⟨0, _⟩ => show win5_1.index t (0 : Fin 2) * 128 + 1 * p.val = win5_1.index t (0 : Fin 2) * 128 + p.val; omega
      | ⟨1, _⟩ => show win5_1.index t (1 : Fin 2) * 6144 + 1 * q.val = q.val; omega
    rw [he, quantArr_ix2]
    refine congrArg (fun f => quant f q) (funext fun k => ?_)
    have hk := k.isLt
    show V c main_v5 (((cfg5.win 0).blk t).view.emb (ix2 p k)) = V c main_v5 (ix2 _ k)
    refine congrArg (V c main_v5) ?_
    funext a; apply Fin.ext
    match a with
    | ⟨0, _⟩ => show win5_0.index t (0 : Fin 2) * 128 + 1 * p.val = win5_1.index t (0 : Fin 2) * 128 + p.val; omega
    | ⟨1, _⟩ => show win5_0.index t (1 : Fin 2) * 6144 + 1 * k.val = k.val; omega
  refine funext fun (j : S128x6144.Idx) => ?_
  have hj := key (j 0) (j 1)
  rw [eq_ix2 j]
  exact hj

/-- An index of the array is in point `t`'s block iff each coordinate is in the block's range on its axis. -/
theorem mem_blk5 (t : Fin cfg5.N) (i : S8192x6144.Idx) :
    i ∈ ((cfg5.win 1).blk t).view.set ↔ ∀ a : Fin 2, win5_1.index t a * S128x6144.size a ≤ (i a).val
      ∧ (i a).val < win5_1.index t a * S128x6144.size a + S128x6144.size a := by
  show i ∈ ((View.whole main_v6).slice (win5_1.rect t)).set ↔ _
  rw [View.set_slice_whole, Rect.mem_set_unit]
  exact Iff.rfl

/-- The row blocks tile the array: row `r` lies in block `r / 128`. -/
theorem cover5 (i : S8192x6144.Idx) :
    ∃ t : Fin cfg5.N, (cfg5.win 1).flush t = true ∧ i ∈ ((cfg5.win 1).blk t).view.set := by
  have hi0 : (i 0).val < 8192 := (i 0).isLt
  have hi1 : (i 1).val < 6144 := (i 1).isLt
  obtain ⟨t, ht⟩ := idx_onto5 ⟨(i 0).val / 128, by omega⟩
  have q0 : win5_1.index t (0 : Fin 2) = (i 0).val / 128 := congrFun ht 0
  have q1 : win5_1.index t (1 : Fin 2) = 0 := congrFun ht 1
  refine ⟨t, flush5_1 t, ?_⟩
  rw [mem_blk5]
  intro a
  match a with
  | ⟨0, _⟩ => show win5_1.index t (0 : Fin 2) * 128 ≤ (i 0).val ∧ (i 0).val < win5_1.index t (0 : Fin 2) * 128 + 128; omega
  | ⟨1, _⟩ => show win5_1.index t (1 : Fin 2) * 6144 ≤ (i 1).val ∧ (i 1).val < win5_1.index t (1 : Fin 2) * 6144 + 6144; omega

/-- After the region its output array is the input array quantised row by row. -/
theorem final5 (c : Dev nD) :
    (dat5 V c).arrAt 1 cfg5.N = quantArr (RT := 8192) (K := 6144) (V c main_v5) :=
  (dat5 V c).arrAt_eq_of_cover 1 _ (fun t _ => flushed5 V c t) cover5

end Region5

end Cert.Mlp.Kern

end
-- ==== Proof.KernelChainA.lean ====
/-
  The buffer contents at the segment boundaries of the kernel's @main, up to the entry of the gate/up region.

  The leading reshape lays the token array out as [8192, 2048]; regions 0, 1, 2 quantise the three weight arrays row by
  row and region 3 the reshaped tokens. A region writes only its own output array, so every other buffer is carried
  across it unchanged: each buffer named below holds, at each boundary, the stated function of the launch memory.
-/
import proofs.«119847_j17025250361715_2_alg».proof.Proof.Gen.KernelIdeal.Frame
import proofs.«119847_j17025250361715_2_alg».proof.Proof.ArrSpec
import proofs.«119847_j17025250361715_2_alg».proof.Proof.RegionsQuant
import Idealize.ShloMosaic.Lib.ValueIdx
import Idealize.ShloMosaic.Lib.Pipeline.Value
import Idealize.ShloMosaic.Lib.StableHlo.Run

set_option maxRecDepth 16384

noncomputable section

namespace Cert.Mlp.Kern

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable [Cert.KernelIdeal.Facts]
variable (m : (ℓ : Loc nD τ sig) → Buf (Elt Ideal) ℓ) (ρ : Dev nD → PrngReg)

/-! ## After the leading reshape -/

theorem V1_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))).trans rfl

theorem V1_arg2 (c : Dev nD) : V1 m ρ c main_arg2 = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))).trans rfl

theorem V1_arg3 (c : Dev nD) : V1 m ρ c main_arg3 = m ((c : Thread nD τ).loc main_arg3) :=
  (StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))).trans rfl

theorem V1_v0 (c : Dev nD) : (V1 m ρ c main_v0 : S8192x2048.Idx → EReal) = shapeCast S8192x2048 (m ((c : Thread nD τ).loc main_arg0)) shapeCasts_S4x2048x2048_S8192x2048 := by
  show (W1 m ρ c (Proc.devRef .tc main_v0) : S8192x2048.Idx → EReal) = _
  dsimp only [W1, hostOps0]
  after_results
  rfl

/-! ## After region 0: the gate weights quantised -/

theorem V2_v1 (c : Dev nD) : (V2 m ρ c main_v1 : S6144x2048.Idx → EReal) = quantArr (RT := 6144) (K := 2048) (m ((c : Thread nD τ).loc main_arg1)) := by
  refine (W2_arr m ρ c 1).trans ?_
  rw [final0 (V1 m ρ) c, V1_arg1]

theorem V2_arg2 (c : Dev nD) : (V2 m ρ c main_arg2 : S6144x2048.Idx → EReal) = m ((c : Thread nD τ).loc main_arg2) :=
  (W2_of_ne m ρ c main_arg2 (by decide)).trans (V1_arg2 m ρ c)

theorem V2_arg3 (c : Dev nD) : (V2 m ρ c main_arg3 : S2048x6144.Idx → EReal) = m ((c : Thread nD τ).loc main_arg3) :=
  (W2_of_ne m ρ c main_arg3 (by decide)).trans (V1_arg3 m ρ c)

theorem V2_v0 (c : Dev nD) : (V2 m ρ c main_v0 : S8192x2048.Idx → EReal) = shapeCast S8192x2048 (m ((c : Thread nD τ).loc main_arg0)) shapeCasts_S4x2048x2048_S8192x2048 :=
  (W2_of_ne m ρ c main_v0 (by decide)).trans (V1_v0 m ρ c)

/-! ## After region 1: the up weights quantised -/

theorem V3_v2 (c : Dev nD) : (V3 m ρ c main_v2 : S6144x2048.Idx → EReal) = quantArr (RT := 6144) (K := 2048) (m ((c : Thread nD τ).loc main_arg2)) := by
  refine (W3_arr m ρ c 1).trans ?_
  rw [final1 (V2 m ρ) c, V2_arg2]

theorem V3_v1 (c : Dev nD) : (V3 m ρ c main_v1 : S6144x2048.Idx → EReal) = quantArr (RT := 6144) (K := 2048) (m ((c : Thread nD τ).loc main_arg1)) :=
  (W3_of_ne m ρ c main_v1 (by decide)).trans (V2_v1 m ρ c)

theorem V3_arg3 (c : Dev nD) : (V3 m ρ c main_arg3 : S2048x6144.Idx → EReal) = m ((c : Thread nD τ).loc main_arg3) :=
  (W3_of_ne m ρ c main_arg3 (by decide)).trans (V2_arg3 m ρ c)

theorem V3_v0 (c : Dev nD) : (V3 m ρ c main_v0 : S8192x2048.Idx → EReal) = shapeCast S8192x2048 (m ((c : Thread nD τ).loc main_arg0)) shapeCasts_S4x2048x2048_S8192x2048 :=
  (W3_of_ne m ρ c main_v0 (by decide)).trans (V2_v0 m ρ c)

/-! ## After region 2: the down weights quantised -/

theorem V4_v3 (c : Dev nD) : (V4 m ρ c main_v3 : S2048x6144.Idx → EReal) = quantArr (RT := 2048) (K := 6144) (m ((c : Thread nD τ).loc main_arg3)) := by
  refine (W4_arr m ρ c 1).trans ?_
  rw [final2 (V3 m ρ) c, V3_arg3]

theorem V4_v1 (c : Dev nD) : (V4 m ρ c main_v1 : S6144x2048.Idx → EReal) = quantArr (RT := 6144) (K := 2048) (m ((c : Thread nD τ).loc main_arg1)) :=
  (W4_of_ne m ρ c main_v1 (by decide)).trans (V3_v1 m ρ c)

theorem V4_v2 (c : Dev nD) : (V4 m ρ c main_v2 : S6144x2048.Idx → EReal) = quantArr (RT := 6144) (K := 2048) (m ((c : Thread nD τ).loc main_arg2)) :=
  (W4_of_ne m ρ c main_v2 (by decide)).trans (V3_v2 m ρ c)

theorem V4_v0 (c : Dev nD) : (V4 m ρ c main_v0 : S8192x2048.Idx → EReal) = shapeCast S8192x2048 (m ((c : Thread nD τ).loc main_arg0)) shapeCasts_S4x2048x2048_S8192x2048 :=
  (W4_of_ne m ρ c main_v0 (by decide)).trans (V3_v0 m ρ c)

/-! ## After region 3: the tokens quantised -/

theorem V5_v4 (c : Dev nD) : (V5 m ρ c main_v4 : S8192x2048.Idx → EReal) = quantArr (RT := 8192) (K := 2048) (shapeCast S8192x2048 (m ((c : Thread nD τ).loc main_arg0)) shapeCasts_S4x2048x2048_S8192x2048) := by
  refine (W5_arr m ρ c 1).trans ?_
  rw [final3 (V4 m ρ) c, V4_v0]

theorem V5_v1 (c : Dev nD) : (V5 m ρ c main_v1 : S6144x2048.Idx → EReal) = quantArr (RT := 6144) (K := 2048) (m ((c : Thread nD τ).loc main_arg1)) :=
  (W5_of_ne m ρ c main_v1 (by decide)).trans (V4_v1 m ρ c)

theorem V5_v2 (c : Dev nD) : (V5 m ρ c main_v2 : S6144x2048.Idx → EReal) = quantArr (RT := 6144) (K := 2048) (m ((c : Thread nD τ).loc main_arg2)) :=
  (W5_of_ne m ρ c main_v2 (by decide)).trans (V4_v2 m ρ c)

theorem V5_v3 (c : Dev nD) : (V5 m ρ c main_v3 : S2048x6144.Idx → EReal) = quantArr (RT := 2048) (K := 6144) (m ((c : Thread nD τ).loc main_arg3)) :=
  (W5_of_ne m ρ c main_v3 (by decide)).trans (V4_v3 m ρ c)

end Cert.Mlp.Kern

end
-- ==== Proof.Literals.lean ====
/-
  The float literals both programs spell, as the extended reals their patterns denote: the clipping bounds ±127,
  the floor 1e-8 of a row's scale (only its sign matters: it is a positive real), the silu's 1, and the
  row maximum's starting value −∞.
-/
import Idealize.ShloMosaic.PureOps.Ideal

noncomputable section

namespace Cert.Mlp

open Idealize.ShloMosaic

/-- The pattern of −∞ denotes `⊥`. -/
theorem lit_negInf : Ideal.ofBits .f32 0xFF800000#32 = (⊥ : EReal) := by
  simp [Ideal.ofBits, Ideal.ieee]

/-- The pattern of 127.0 denotes the real 127. -/
theorem lit_qmax : Ideal.ofBits .f32 0x42FE0000#32 = ((127 : ℝ) : EReal) := by
  simp [Ideal.ofBits, Ideal.ieee, -EReal.coe_mul]; norm_num

/-- The pattern of −127.0 denotes the real −127. -/
theorem lit_negQmax : Ideal.ofBits .f32 0xC2FE0000#32 = ((-127 : ℝ) : EReal) := by
  simp [Ideal.ofBits, Ideal.ieee, -EReal.coe_mul]; norm_num

/-- The pattern of 1.0 denotes 1. -/
theorem lit_one : Ideal.ofBits .f32 0x3F800000#32 = (1 : EReal) := by
  simp [Ideal.ofBits, Ideal.ieee, -EReal.coe_mul]; norm_num

/-- The scale's floor (the float nearest 1e-8) denotes a positive real. -/
theorem lit_eps : ∃ e : ℝ, 0 < e ∧ Ideal.ofBits .f32 0x322BCC77#32 = ((e : ℝ) : EReal) := by
  refine ⟨_, ?_, by simp [Ideal.ofBits, Ideal.ieee, -EReal.coe_mul]; rfl⟩
  positivity

end Cert.Mlp

end
-- ==== Proof.MatmulBlocks.lean ====
/-
  The two matrix products of the idealized kernel, read at an index.

  Each is the product of a left block with the TRANSPOSE of a weight block into a zero accumulator: at `(p, q)` it
  is the sum over the contracted axis `k` of `left (p, k) · weight (q, k)`, that is the contraction of row `p` of the
  left block with row `q` of the weight block. The gate/up stage then forms `gate · σ(gate) · up`, where the logistic
  function `σ(g)` is by definition `1 / (1 + e^(−g))`.
-/
import proofs.«119847_j17025250361715_2_alg».proof.Proof.Gen.KernelIdeal.Skeleton
import proofs.«119847_j17025250361715_2_alg».proof.Proof.QuantSpec
import proofs.«119847_j17025250361715_2_alg».proof.Proof.Literals
import Idealize.ShloMosaic.Lib.ValueIdx
import Idealize.ShloMosaic.Lib.ValueLayout
import Idealize.ShloMosaic.Lib.Pipeline.Value
import Idealize.ShloMosaic.PureOps.Ideal.Laws

noncomputable section

namespace Cert.Mlp.Kern

open Cert.KernelIdeal Cert.KernelIdeal.Gen Idealize.ShloMosaic Idealize.ShloMosaic.ValueIdx

variable [Cert.KernelIdeal.Facts]

/-! ## The down projection's product: a [256, 6144] block by the transpose of a [512, 6144] block -/

theorem lhs6_0 (i : S256x512.Idx) (k : dot_S256x6144_S6144x512_S256x512_1_0_0_1_n_n.contr.Idx) :
    (dot_S256x6144_S6144x512_S256x512_1_0_0_1_n_n.lhsIdx i k 0).val = (i 0).val := by
  unfold DotDims.lhsIdx
  rw [dif_neg (show ¬(0 : Fin S256x6144.rank) ∈ dot_S256x6144_S6144x512_S256x512_1_0_0_1_n_n.lhsBatch by decide),
    dif_pos (show (0 : Fin S256x6144.rank) ∈ dot_S256x6144_S6144x512_S256x512_1_0_0_1_n_n.lhsNonContracting by decide)]
  rfl

theorem lhs6_1 (i : S256x512.Idx) (k : dot_S256x6144_S6144x512_S256x512_1_0_0_1_n_n.contr.Idx) :
    (dot_S256x6144_S6144x512_S256x512_1_0_0_1_n_n.lhsIdx i k 1).val = (k ⟨0, by decide⟩).val :=
  dot_S256x6144_S6144x512_S256x512_1_0_0_1_n_n.lhsIdx_val_of_single rfl i k

theorem rhs6_0 (i : S256x512.Idx) (k : dot_S256x6144_S6144x512_S256x512_1_0_0_1_n_n.contr.Idx) :
    (dot_S256x6144_S6144x512_S256x512_1_0_0_1_n_n.rhsIdx i k 0).val = (k ⟨0, by decide⟩).val :=
  dot_S256x6144_S6144x512_S256x512_1_0_0_1_n_n.rhsIdx_val_of_single rfl i k

theorem rhs6_1 (i : S256x512.Idx) (k : dot_S256x6144_S6144x512_S256x512_1_0_0_1_n_n.contr.Idx) :
    (dot_S256x6144_S6144x512_S256x512_1_0_0_1_n_n.rhsIdx i k 1).val = (i 1).val := by
  unfold DotDims.rhsIdx
  rw [dif_neg (show ¬(1 : Fin S6144x512.rank) ∈ dot_S256x6144_S6144x512_S256x512_1_0_0_1_n_n.rhsBatch by decide),
    dif_pos (show (1 : Fin S6144x512.rank) ∈ dot_S256x6144_S6144x512_S256x512_1_0_0_1_n_n.rhsNonContracting by decide)]
  rfl

/-- The product of a block with a transposed block, into zero, at `(p, q)`: row `p` contracted with row `q`. -/
theorem mm6_at (a : FVec Ideal S256x6144 .bf16) (w : FVec Ideal S512x6144 .bf16) (p : Fin 256) (q : Fin 512) :
    matmul dot_S256x6144_S6144x512_S256x512_1_0_0_1_n_n none a
        (transpose S6144x512 [1, 0] w transposes_S512x6144_p1_0_S6144x512) (constant S256x512 .f32 0x00000000#32) (ix2 p q)
      = Cert.Mlp.dotRow (fun j : Fin 6144 => a (ix2 p j)) (fun j : Fin 6144 => w (ix2 q j)) := by
  simp only [matmul]
  rw [Ideal.matmul_constant_zero_apply,
    ← Equiv.sum_comp (ValueIdx.contrEquiv1 dot_S256x6144_S6144x512_S256x512_1_0_0_1_n_n 6144 rfl rfl).symm]
  unfold Cert.Mlp.dotRow
  refine Finset.sum_congr rfl fun k _ => ?_
  have hk := ValueIdx.contrEquiv1_symm_val dot_S256x6144_S6144x512_S256x512_1_0_0_1_n_n 6144 rfl rfl k
  have el : dot_S256x6144_S6144x512_S256x512_1_0_0_1_n_n.lhsIdx (ix2 p q)
      ((ValueIdx.contrEquiv1 dot_S256x6144_S6144x512_S256x512_1_0_0_1_n_n 6144 rfl rfl).symm k) = ix2 p k :=
    funext fun c => Fin.ext (by
      match c with
      | ⟨0, _⟩ => exact lhs6_0 _ _
      | ⟨1, _⟩ => exact (lhs6_1 _ _).trans hk)
  have er : dot_S256x6144_S6144x512_S256x512_1_0_0_1_n_n.rhsIdx (ix2 p q)
      ((ValueIdx.contrEquiv1 dot_S256x6144_S6144x512_S256x512_1_0_0_1_n_n 6144 rfl rfl).symm k) = ix2 k q :=
    funext fun c => Fin.ext (by
      match c with
      | ⟨0, _⟩ => exact (rhs6_0 _ _).trans hk
      | ⟨1, _⟩ => exact rhs6_1 _ _)
  rw [el, er, transpose_ix2_apply]

/-- The down projection's payload at `(p, q)`. -/
theorem k6_pay1_at (x0 : FVec Ideal S256x6144 .bf16) (w : FVec Ideal S512x6144 .bf16) (p : Fin 256) (q : Fin 512) :
    k6_pay1 (F := Ideal) x0 w (ix2 p q)
      = Cert.Mlp.dotRow (fun j : Fin 6144 => x0 (ix2 p j)) (fun j : Fin 6144 => w (ix2 q j)) := by
  refine Eq.trans ?_ (mm6_at x0 w p q)
  unfold k6_pay1
  dsimp only
  rw [shapeCast_self x0, shapeCast_self w]

/-! ## The gate and up products: a [512, 2048] block by the transpose of a [1024, 2048] block -/

theorem lhs4_0 (i : S512x1024.Idx) (k : dot_S512x2048_S2048x1024_S512x1024_1_0_0_1_n_n.contr.Idx) :
    (dot_S512x2048_S2048x1024_S512x1024_1_0_0_1_n_n.lhsIdx i k 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

theorem lhs4_1 (i : S512x1024.Idx) (k : dot_S512x2048_S2048x1024_S512x1024_1_0_0_1_n_n.contr.Idx) :
    (dot_S512x2048_S2048x1024_S512x1024_1_0_0_1_n_n.lhsIdx i k 1).val = (k ⟨0, by decide⟩).val :=
  dot_S512x2048_S2048x1024_S512x1024_1_0_0_1_n_n.lhsIdx_val_of_single rfl i k

theorem rhs4_0 (i : S512x1024.Idx) (k : dot_S512x2048_S2048x1024_S512x1024_1_0_0_1_n_n.contr.Idx) :
    (dot_S512x2048_S2048x1024_S512x1024_1_0_0_1_n_n.rhsIdx i k 0).val = (k ⟨0, by decide⟩).val :=
  dot_S512x2048_S2048x1024_S512x1024_1_0_0_1_n_n.rhsIdx_val_of_single rfl i k

theorem rhs4_1 (i : S512x1024.Idx) (k : dot_S512x2048_S2048x1024_S512x1024_1_0_0_1_n_n.contr.Idx) :
    (dot_S512x2048_S2048x1024_S512x1024_1_0_0_1_n_n.rhsIdx i k 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The product of a block with a transposed block, into zero, at `(p, q)`: row `p` contracted with row `q`. -/
theorem mm4_at (a : FVec Ideal S512x2048 .bf16) (w : FVec Ideal S1024x2048 .bf16) (p : Fin 512) (q : Fin 1024) :
    matmul dot_S512x2048_S2048x1024_S512x1024_1_0_0_1_n_n none a
        (transpose S2048x1024 [1, 0] w transposes_S1024x2048_p1_0_S2048x1024) (constant S512x1024 .f32 0x00000000#32) (ix2 p q)
      = Cert.Mlp.dotRow (fun k : Fin 2048 => a (ix2 p k)) (fun k : Fin 2048 => w (ix2 q k)) := by
  simp only [matmul]
  rw [Ideal.matmul_constant_zero_apply,
    ← Equiv.sum_comp (ValueIdx.contrEquiv1 dot_S512x2048_S2048x1024_S512x1024_1_0_0_1_n_n 2048 rfl rfl).symm]
  unfold Cert.Mlp.dotRow
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 p q)
      ((ValueIdx.contrEquiv1 dot_S512x2048_S2048x1024_S512x1024_1_0_0_1_n_n 2048 rfl rfl).symm k) = ix2 p k :=
    funext fun c => Fin.ext (by
      match c with
      | ⟨0, _⟩ => exact lhs4_0 _ _
      | ⟨1, _⟩ => exact (lhs4_1 _ _).trans hk)
  have er : dot_S512x2048_S2048x1024_S512x1024_1_0_0_1_n_n.rhsIdx (ix2 p q)
      ((ValueIdx.contrEquiv1 dot_S512x2048_S2048x1024_S512x1024_1_0_0_1_n_n 2048 rfl rfl).symm k) = ix2 k q :=
    funext fun c => Fin.ext (by
      match c with
      | ⟨0, _⟩ => exact (rhs4_0 _ _).trans hk
      | ⟨1, _⟩ => exact rhs4_1 _ _)
  rw [el, er, transpose_ix2_apply]

/-- `g · σ(g)`: the logistic function is `1 / (1 + e^(−g))` by definition. -/
theorem silu_eq_mul_logistic (g : EReal) : Cert.Mlp.silu g = g * Ideal.logistic g := by
  rw [Cert.Mlp.silu, Cert.Mlp.lit_one, Ideal.logistic]

/-- The gate/up payload at `(p, q)`: `gate · σ(gate) · up` of the two contractions. -/
theorem k4_pay1_at (x0 : FVec Ideal S512x2048 .bf16) (w1 w2 : FVec Ideal S1024x2048 .bf16) (p : Fin 512) (q : Fin 1024) :
    k4_pay1 (F := Ideal) x0 w1 w2 (ix2 p q)
      = Cert.Mlp.silu (Cert.Mlp.dotRow (fun k : Fin 2048 => x0 (ix2 p k)) (fun k : Fin 2048 => w1 (ix2 q k)))
          * Cert.Mlp.dotRow (fun k : Fin 2048 => x0 (ix2 p k)) (fun k : Fin 2048 => w2 (ix2 q k)) := by
  rw [silu_eq_mul_logistic, ← mm4_at x0 w1 p q, ← mm4_at x0 w2 p q]
  unfold k4_pay1
  dsimp only
  rw [shapeCast_self x0, shapeCast_self w1, shapeCast_self w2]
  rfl

end Cert.Mlp.Kern

end
-- ==== Proof.Region4.lean ====
/-
  The gate/up region of the kernel as one whole-array function.

  The region runs over a 6 × 16 grid; at the point with coordinates `(j, i)` it reads rows `512 i … 512 i + 511` of the
  quantised tokens and rows `1024 j … 1024 j + 1023` of the two quantised weight arrays, and writes the
  `[512, 1024]` block at block index `(i, j)` of the output: entry `(p, q)` of that block is
  `silu (x_row · gate_row) · (x_row · up_row)` of token row `512 i + p` and weight row `1024 j + q`. The 96 output
  blocks tile the `[8192, 6144]` output, so after the region the output array is the hidden-activation array
  of the three input arrays.
-/
import proofs.«119847_j17025250361715_2_alg».proof.Proof.Gen.KernelIdeal.Frame
import proofs.«119847_j17025250361715_2_alg».proof.Proof.ArrSpec
import proofs.«119847_j17025250361715_2_alg».proof.Proof.MatmulBlocks
import Idealize.ShloMosaic.Lib.ValueIdx
import Idealize.ShloMosaic.Lib.Pipeline.Value

set_option maxRecDepth 16384

noncomputable section

namespace Cert.Mlp.Kern

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable [Cert.KernelIdeal.Facts]

section Region4
variable (V : (c : Dev nD) → (b : Ref sig .tc) → Buf (Elt Ideal) ((c : Thread nD τ).loc b))

/-- The printed index maps over the grid: the token block moves with the output's row block, the two weight blocks
    with the output's column block, and no input block moves along its rows. -/
theorem idx_facts4 : ∀ t : Fin cfg4.N,
    win4_0.index t (0 : Fin 2) = win4_3.index t (0 : Fin 2) ∧ win4_0.index t (1 : Fin 2) = 0
    ∧ win4_1.index t (0 : Fin 2) = win4_3.index t (1 : Fin 2) ∧ win4_1.index t (1 : Fin 2) = 0
    ∧ win4_2.index t (0 : Fin 2) = win4_3.index t (1 : Fin 2) ∧ win4_2.index t (1 : Fin 2) = 0
    ∧ win4_3.index t (0 : Fin 2) < 16 ∧ win4_3.index t (1 : Fin 2) < 6 :=
  (by decide +kernel : ∀ t : Fin grid4.N, _)

/-- Every output block is some point's. -/
theorem idx_onto4 : ∀ (q0 : Fin 16) (q1 : Fin 6), ∃ t : Fin cfg4.N, win4_3.index t = ![q0.val, q1.val] :=
  (by decide +kernel : ∀ (q0 : Fin 16) (q1 : Fin 6), ∃ t : Fin grid4.N, win4_3.index t = ![q0.val, q1.val])

/-- What point `t` writes back is its block of the hidden-activation array of the three input arrays. -/
theorem flushed4 (c : Dev nD) (t : Fin cfg4.N) :
    (dat4 V c).flushed 3 t
      = ((cfg4.win 3).blk t).view.read (Elt Ideal)
          (hidArr (N := 8192) (H := 2048) (I := 6144) (V c main_v4) (V c main_v1) (V c main_v2)) := by
  show (cfg4.win 3).cut (grid4.coords t) ((dat4 V c).after 3 t) = _
  rw [after4_3]
  unfold out4_3
  rw [View.canon_unit_zero hz2]
  simp only [View.ld_unit_zero (S := S512x2048) hz2, View.ld_unit_zero (S := S1024x2048) hz2]
  obtain ⟨e00, e01, e10, e11, e20, e21, b0, b1⟩ := idx_facts4 t
  have key : ∀ (p : Fin 512) (q : Fin 1024),
      k4_pay1 (F := Ideal) (iblk4 V c 0 t) (iblk4 V c 1 t) (iblk4 V c 2 t) (ix2 p q)
        = hidArr (N := 8192) (H := 2048) (I := 6144) (V c main_v4) (V c main_v1) (V c main_v2)
            (((cfg4.win 3).blk t).view.emb (ix2 p q)) := by
    intro p q
    have hp := p.isLt
    have hq := q.isLt
    refine (k4_pay1_at (iblk4 V c 0 t) (iblk4 V c 1 t) (iblk4 V c 2 t) p q).trans ?_
    have he : ((cfg4.win 3).blk t).view.emb (ix2 p q)
        = (ix2 (⟨win4_3.index t (0 : Fin 2) * 512 + p.val, by omega⟩ : Fin 8192)
            (⟨win4_3.index t (1 : Fin 2) * 1024 + q.val, by omega⟩ : Fin 6144) : (⟨2, ![8192, 6144]⟩ : Shape).Idx) := by
      funext a; apply Fin.ext
      match a with
      | ⟨0, _⟩ => show win4_3.index t (0 : Fin 2) * 512 + 1 * p.val = win4_3.index t (0 : Fin 2) * 512 + p.val; omega
      | ⟨1, _⟩ => show win4_3.index t (1 : Fin 2) * 1024 + 1 * q.val = win4_3.index t (1 : Fin 2) * 1024 + q.val; omega
    rw [he, hidArr_ix2]
    -- the three rows, each read through its window at the array's own index
    have hx : (fun k : Fin 2048 => iblk4 V c 0 t (ix2 p k))
        = fun k : Fin 2048 => V c main_v4 (ix2 (⟨win4_3.index t (0 : Fin 2) * 512 + p.val, by omega⟩ : Fin 8192) k) := by
      funext k
      have hk := k.isLt
      show V c main_v4 (((cfg4.win 0).blk t).view.emb (ix2 p k)) = V c main_v4 (ix2 _ k)
      refine congrArg (V c main_v4) ?_
      funext a; apply Fin.ext
      match a with
      | ⟨0, _⟩ => show win4_0.index t (0 : Fin 2) * 512 + 1 * p.val = win4_3.index t (0 : Fin 2) * 512 + p.val; omega
      | ⟨1, _⟩ => show win4_0.index t (1 : Fin 2) * 2048 + 1 * k.val = k.val; omega
    have hg : (fun k : Fin 2048 => iblk4 V c 1 t (ix2 q k))
        = fun k : Fin 2048 => V c main_v1 (ix2 (⟨win4_3.index t (1 : Fin 2) * 1024 + q.val, by omega⟩ : Fin 6144) k) := by
      funext k
      have hk := k.isLt
      show V c main_v1 (((cfg4.win 1).blk t).view.emb (ix2 q k)) = V c main_v1 (ix2 _ k)
      refine congrArg (V c main_v1) ?_
      funext a; apply Fin.ext
      match a with
      | ⟨0, _⟩ => show win4_1.index t (0 : Fin 2) * 1024 + 1 * q.val = win4_3.index t (1 : Fin 2) * 1024 + q.val; omega
      | ⟨1, _⟩ => show win4_1.index t (1 : Fin 2) * 2048 + 1 * k.val = k.val; omega
    have hu : (fun k : Fin 2048 => iblk4 V c 2 t (ix2 q k))
        = fun k : Fin 2048 => V c main_v2 (ix2 (⟨win4_3.index t (1 : Fin 2) * 1024 + q.val, by omega⟩ : Fin 6144) k) := by
      funext k
      have hk := k.isLt
      show V c main_v2 (((cfg4.win 2).blk t).view.emb (ix2 q k)) = V c main_v2 (ix2 _ k)
      refine congrArg (V c main_v2) ?_
      funext a; apply Fin.ext
      match a with
      | ⟨0, _⟩ => show win4_2.index t (0 : Fin 2) * 1024 + 1 * q.val = win4_3.index t (1 : Fin 2) * 1024 + q.val; omega
      | ⟨1, _⟩ => show win4_2.index t (1 : Fin 2) * 2048 + 1 * k.val = k.val; omega
    rw [hx, hg, hu]
  refine funext fun (j : S512x1024.Idx) => ?_
  have hj := key (j 0) (j 1)
  rw [eq_ix2 j]
  exact hj

/-- An index of the array is in point `t`'s block iff each coordinate is in the block's range on its axis. -/
theorem mem_blk4 (t : Fin cfg4.N) (i : S8192x6144.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v5).slice (win4_3.rect t)).set ↔ _
  rw [View.set_slice_whole, Rect.mem_set_unit]
  exact Iff.rfl

/-- The output blocks tile the array: entry `(r, s)` lies in block `(r / 512, s / 1024)`. -/
theorem cover4 (i : S8192x6144.Idx) :
    ∃ t : Fin cfg4.N, (cfg4.win 3).flush t = true ∧ i ∈ ((cfg4.win 3).blk t).view.set := by
  have hi0 : (i 0).val < 8192 := (i 0).isLt
  have hi1 : (i 1).val < 6144 := (i 1).isLt
  obtain ⟨t, ht⟩ := idx_onto4 ⟨(i 0).val / 512, by omega⟩ ⟨(i 1).val / 1024, by omega⟩
  have q0 : win4_3.index t (0 : Fin 2) = (i 0).val / 512 := congrFun ht 0
  have q1 : win4_3.index t (1 : Fin 2) = (i 1).val / 1024 := congrFun ht 1
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- After the region its output array is the hidden-activation array of the three input arrays. -/
theorem final4 (c : Dev nD) :
    (dat4 V c).arrAt 3 cfg4.N
      = hidArr (N := 8192) (H := 2048) (I := 6144) (V c main_v4) (V c main_v1) (V c main_v2) :=
  (dat4 V c).arrAt_eq_of_cover 3 _ (fun t _ => flushed4 V c t) cover4

end Region4

end Cert.Mlp.Kern

end
-- ==== Proof.Region6.lean ====
/-
  The down projection's region as one whole-array function.

  The region walks a 4 × 32 grid; at point (j, i) it loads rows [256 i, 256 i + 256) of the quantised hidden
  activations and rows [512 j, 512 j + 512) of the quantised down weights, and stores into block (i, j) of the output
  the contraction of every loaded activation row with every loaded weight row.  Each stored block is therefore the
  restriction to that block of ONE function of the two whole arrays — entry (n, o) is row n of the activations contracted
  with row o of the weights — and the blocks tile the output, so after the region the output array is that function.
-/
import proofs.«119847_j17025250361715_2_alg».proof.Proof.Gen.KernelIdeal.Frame
import proofs.«119847_j17025250361715_2_alg».proof.Proof.ArrSpec
import proofs.«119847_j17025250361715_2_alg».proof.Proof.MatmulBlocks
import Idealize.ShloMosaic.Lib.ValueIdx
import Idealize.ShloMosaic.Lib.Pipeline.Value

set_option maxRecDepth 16384

noncomputable section

namespace Cert.Mlp.Kern

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable [Cert.KernelIdeal.Facts]

/-! ## Region 6: blocks of activation rows against blocks of weight rows, contracted into blocks of `main_v7` -/

section Region6
variable (V : (c : Dev nD) → (b : Ref sig .tc) → Buf (Elt Ideal) ((c : Thread nD τ).loc b))

/-- The printed index maps over the grid: the activation block moves with the output block's row coordinate, the weight
    block with its column coordinate, neither moves along the contracted axis, and the output's block coordinates stay
    inside the 32 × 4 tiling. -/
theorem idx_facts6 : ∀ t : Fin cfg6.N, win6_0.index t (0 : Fin 2) = win6_2.index t (0 : Fin 2)
    ∧ win6_0.index t (1 : Fin 2) = 0 ∧ win6_1.index t (0 : Fin 2) = win6_2.index t (1 : Fin 2)
    ∧ win6_1.index t (1 : Fin 2) = 0 ∧ win6_2.index t (0 : Fin 2) < 32 ∧ win6_2.index t (1 : Fin 2) < 4 :=
  (by decide +kernel : ∀ t : Fin grid6.N, _)

/-- Every output block is some point's. -/
theorem idx_onto6 : ∀ (q0 : Fin 32) (q1 : Fin 4), ∃ t : Fin cfg6.N, win6_2.index t = ![q0.val, q1.val] :=
  (by decide +kernel : ∀ (q0 : Fin 32) (q1 : Fin 4), ∃ t : Fin grid6.N, win6_2.index t = ![q0.val, q1.val])

/-- What point `t` writes back is its block of the down projection of the two whole arrays. -/
theorem flushed6 (c : Dev nD) (t : Fin cfg6.N) :
    (dat6 V c).flushed 2 t
      = ((cfg6.win 2).blk t).view.read (Elt Ideal)
          (downArr (N := 8192) (H := 2048) (I := 6144) (V c main_v6) (V c main_v3)) := by
  show (cfg6.win 2).cut (grid6.coords t) ((dat6 V c).after 2 t) = _
  rw [after6_2]
  unfold out6_2
  rw [View.canon_unit_zero hz2]
  simp only [View.ld_unit_zero (S := S256x6144) hz2, View.ld_unit_zero (S := S512x6144) hz2]
  obtain ⟨e0, e1, e2, e3, e4, e5⟩ := idx_facts6 t
  have key : ∀ (p : Fin 256) (q : Fin 512), k6_pay1 (F := Ideal) (iblk6 V c 0 t) (iblk6 V c 1 t) (ix2 p q)
      = downArr (N := 8192) (H := 2048) (I := 6144) (V c main_v6) (V c main_v3)
          (((cfg6.win 2).blk t).view.emb (ix2 p q)) := by
    intro p q
    have hp := p.isLt
    have hq := q.isLt
    refine (k6_pay1_at (iblk6 V c 0 t) (iblk6 V c 1 t) p q).trans ?_
    have he : ((cfg6.win 2).blk t).view.emb (ix2 p q)
        = (ix2 (⟨win6_2.index t (0 : Fin 2) * 256 + p.val, by omega⟩ : Fin 8192)
            (⟨win6_2.index t (1 : Fin 2) * 512 + q.val, by omega⟩ : Fin 2048) : (⟨2, ![8192, 2048]⟩ : Shape).Idx) := by
      funext a; apply Fin.ext
      match a with
      | ⟨0, _⟩ => show win6_2.index t (0 : Fin 2) * 256 + 1 * p.val = win6_2.index t (0 : Fin 2) * 256 + p.val; omega
      | ⟨1, _⟩ => show win6_2.index t (1 : Fin 2) * 512 + 1 * q.val = win6_2.index t (1 : Fin 2) * 512 + q.val; omega
    rw [he, downArr_ix2]
    refine congrArg₂ Cert.Mlp.dotRow (funext fun k => ?_) (funext fun k => ?_)
    · have hk := k.isLt
      show V c main_v6 (((cfg6.win 0).blk t).view.emb (ix2 p k)) = V c main_v6 (ix2 _ k)
      refine congrArg (V c main_v6) ?_
      funext a; apply Fin.ext
      match a with
      | ⟨0, _⟩ => show win6_0.index t (0 : Fin 2) * 256 + 1 * p.val = win6_2.index t (0 : Fin 2) * 256 + p.val; omega
      | ⟨1, _⟩ => show win6_0.index t (1 : Fin 2) * 6144 + 1 * k.val = k.val; omega
    · have hk := k.isLt
      show V c main_v3 (((cfg6.win 1).blk t).view.emb (ix2 q k)) = V c main_v3 (ix2 _ k)
      refine congrArg (V c main_v3) ?_
      funext a; apply Fin.ext
      match a with
      | ⟨0, _⟩ => show win6_1.index t (0 : Fin 2) * 512 + 1 * q.val = win6_2.index t (1 : Fin 2) * 512 + q.val; omega
      | ⟨1, _⟩ => show win6_1.index t (1 : Fin 2) * 6144 + 1 * k.val = k.val; omega
  refine funext fun (j : S256x512.Idx) => ?_
  have hj := key (j 0) (j 1)
  rw [eq_ix2 j]
  exact hj

/-- An index of the array is in point `t`'s block iff each coordinate is in the block's range on its axis. -/
theorem mem_blk6 (t : Fin cfg6.N) (i : S8192x2048.Idx) :
    i ∈ ((cfg6.win 2).blk t).view.set ↔ ∀ a : Fin 2, win6_2.index t a * S256x512.size a ≤ (i a).val
      ∧ (i a).val < win6_2.index t a * S256x512.size a + S256x512.size a := by
  show i ∈ ((View.whole main_v7).slice (win6_2.rect t)).set ↔ _
  rw [View.set_slice_whole, Rect.mem_set_unit]
  exact Iff.rfl

/-- The blocks tile the array: entry (n, o) lies in block (n / 256, o / 512). -/
theorem cover6 (i : S8192x2048.Idx) :
    ∃ t : Fin cfg6.N, (cfg6.win 2).flush t = true ∧ i ∈ ((cfg6.win 2).blk t).view.set := by
  have hi0 : (i 0).val < 8192 := (i 0).isLt
  have hi1 : (i 1).val < 2048 := (i 1).isLt
  obtain ⟨t, ht⟩ := idx_onto6 ⟨(i 0).val / 256, by omega⟩ ⟨(i 1).val / 512, by omega⟩
  have q0 : win6_2.index t (0 : Fin 2) = (i 0).val / 256 := congrFun ht 0
  have q1 : win6_2.index t (1 : Fin 2) = (i 1).val / 512 := congrFun ht 1
  refine ⟨t, flush6_2 t, ?_⟩
  rw [mem_blk6]
  intro a
  match a with
  | ⟨0, _⟩ => show win6_2.index t (0 : Fin 2) * 256 ≤ (i 0).val ∧ (i 0).val < win6_2.index t (0 : Fin 2) * 256 + 256; omega
  | ⟨1, _⟩ => show win6_2.index t (1 : Fin 2) * 512 ≤ (i 1).val ∧ (i 1).val < win6_2.index t (1 : Fin 2) * 512 + 512; omega

/-- After the region its output array is the down projection of the two input arrays. -/
theorem final6 (c : Dev nD) :
    (dat6 V c).arrAt 2 cfg6.N = downArr (N := 8192) (H := 2048) (I := 6144) (V c main_v6) (V c main_v3) :=
  (dat6 V c).arrAt_eq_of_cover 2 _ (fun t _ => flushed6 V c t) cover6

end Region6

end Cert.Mlp.Kern
end
-- ==== Proof.KernelValue.lean ====
/-
  The kernel's result as a function of its arguments.

  Region 4 forms the hidden activations from the quantised tokens and gate/up weights, region 5 quantises them row by
  row, region 6 contracts them with the quantised down weights, and the closing reshape lays the [8192, 2048] result
  out as [4, 2048, 2048]. Token row `n = b · 2048 + s` of the reshaped input is row `(b, s)` of the argument, and every
  step acts on whole rows, so entry `(b, s, o)` of the result is the gated-MLP result row of token row `(b, s)` at `o`.
-/
import proofs.«119847_j17025250361715_2_alg».proof.Proof.Gen.KernelIdeal.Frame
import proofs.«119847_j17025250361715_2_alg».proof.Proof.ArrSpec
import proofs.«119847_j17025250361715_2_alg».proof.Proof.KernelChainA
import proofs.«119847_j17025250361715_2_alg».proof.Proof.Region4
import proofs.«119847_j17025250361715_2_alg».proof.Proof.Region6
import Idealize.ShloMosaic.Lib.ValueIdx
import Idealize.ShloMosaic.Lib.Pipeline.Value
import Idealize.ShloMosaic.Lib.StableHlo.Run

set_option maxRecDepth 16384

noncomputable section

namespace Cert.Mlp.Kern

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable [Cert.KernelIdeal.Facts]
variable (m : (ℓ : Loc nD τ sig) → Buf (Elt Ideal) ℓ) (ρ : Dev nD → PrngReg)

/-! ## After region 4: the hidden activations -/

theorem V6_v5 (c : Dev nD) : (V6 m ρ c main_v5 : S8192x6144.Idx → EReal) = hidArr (N := 8192) (H := 2048) (I := 6144) (quantArr (RT := 8192) (K := 2048) (shapeCast S8192x2048 (m ((c : Thread nD τ).loc main_arg0)) shapeCasts_S4x2048x2048_S8192x2048)) (quantArr (RT := 6144) (K := 2048) (m ((c : Thread nD τ).loc main_arg1))) (quantArr (RT := 6144) (K := 2048) (m ((c : Thread nD τ).loc main_arg2))) := by
  refine (W6_arr m ρ c 3).trans ?_
  rw [final4 (V5 m ρ) c, V5_v4, V5_v1, V5_v2]

theorem V6_v3 (c : Dev nD) : (V6 m ρ c main_v3 : S2048x6144.Idx → EReal) = quantArr (RT := 2048) (K := 6144) (m ((c : Thread nD τ).loc main_arg3)) :=
  (W6_of_ne m ρ c main_v3 (by decide)).trans (V5_v3 m ρ c)

/-! ## After region 5: the hidden activations quantised -/

theorem V7_v6 (c : Dev nD) : (V7 m ρ c main_v6 : S8192x6144.Idx → EReal) = quantArr (RT := 8192) (K := 6144) (hidArr (N := 8192) (H := 2048) (I := 6144) (quantArr (RT := 8192) (K := 2048) (shapeCast S8192x2048 (m ((c : Thread nD τ).loc main_arg0)) shapeCasts_S4x2048x2048_S8192x2048)) (quantArr (RT := 6144) (K := 2048) (m ((c : Thread nD τ).loc main_arg1))) (quantArr (RT := 6144) (K := 2048) (m ((c : Thread nD τ).loc main_arg2)))) := by
  refine (W7_arr m ρ c 1).trans ?_
  rw [final5 (V6 m ρ) c, V6_v5]

theorem V7_v3 (c : Dev nD) : (V7 m ρ c main_v3 : S2048x6144.Idx → EReal) = quantArr (RT := 2048) (K := 6144) (m ((c : Thread nD τ).loc main_arg3)) :=
  (W7_of_ne m ρ c main_v3 (by decide)).trans (V6_v3 m ρ c)

/-! ## After region 6: the down projection -/

theorem V8_v7 (c : Dev nD) : (V8 m ρ c main_v7 : S8192x2048.Idx → EReal) = downArr (N := 8192) (H := 2048) (I := 6144) (quantArr (RT := 8192) (K := 6144) (hidArr (N := 8192) (H := 2048) (I := 6144) (quantArr (RT := 8192) (K := 2048) (shapeCast S8192x2048 (m ((c : Thread nD τ).loc main_arg0)) shapeCasts_S4x2048x2048_S8192x2048)) (quantArr (RT := 6144) (K := 2048) (m ((c : Thread nD τ).loc main_arg1))) (quantArr (RT := 6144) (K := 2048) (m ((c : Thread nD τ).loc main_arg2))))) (quantArr (RT := 2048) (K := 6144) (m ((c : Thread nD τ).loc main_arg3))) := by
  refine (W8_arr m ρ c 2).trans ?_
  rw [final6 (V7 m ρ) c, V7_v6, V7_v3]

/-! ## After the closing reshape -/

theorem W9_v8 (c : Dev nD) :
    (W9 m ρ c (Proc.devRef .tc main_v8) : S4x2048x2048.Idx → EReal)
      = shapeCast S4x2048x2048 (downArr (N := 8192) (H := 2048) (I := 6144) (quantArr (RT := 8192) (K := 6144) (hidArr (N := 8192) (H := 2048) (I := 6144) (quantArr (RT := 8192) (K := 2048) (shapeCast S8192x2048 (m ((c : Thread nD τ).loc main_arg0)) shapeCasts_S4x2048x2048_S8192x2048)) (quantArr (RT := 6144) (K := 2048) (m ((c : Thread nD τ).loc main_arg1))) (quantArr (RT := 6144) (K := 2048) (m ((c : Thread nD τ).loc main_arg2))))) (quantArr (RT := 2048) (K := 6144) (m ((c : Thread nD τ).loc main_arg3)))) shapeCasts_S8192x2048_S4x2048x2048 := by
  have h : (W9 m ρ c (Proc.devRef .tc main_v8) : S4x2048x2048.Idx → EReal)
      = shapeCast S4x2048x2048 (V8 m ρ c main_v7) shapeCasts_S8192x2048_S4x2048x2048 := by
    dsimp only [W9, hostOps7]
    after_results
    rfl
  rw [h, V8_v7]

/-! ## The result at an index -/

/-- Entry `(b, s, o)` of the result buffer is entry `o` of the gated-MLP result row of token row `(b, s)`. -/
theorem result_at (c : Dev nD) (b : Fin 4) (s o : Fin 2048) :
    (W9 m ρ c (Proc.devRef .tc main_v8) : S4x2048x2048.Idx → EReal) (ix3 b s o)
      = outRow (fun k : Fin 2048 => m ((c : Thread nD τ).loc main_arg0) (ix3 b s k))
          (fun (j : Fin 6144) (k : Fin 2048) => m ((c : Thread nD τ).loc main_arg1) (ix2 j k))
          (fun (j : Fin 6144) (k : Fin 2048) => m ((c : Thread nD τ).loc main_arg2) (ix2 j k))
          (fun (o' : Fin 2048) (j : Fin 6144) => m ((c : Thread nD τ).loc main_arg3) (ix2 o' j)) o := by
  have hb := b.isLt
  have hs := s.isLt
  rw [W9_v8]
  -- the reshape: (b, s, o) of the result is (b · 2048 + s, o) of the [8192, 2048] array
  rw [shapeCast_apply _ shapeCasts_S8192x2048_S4x2048x2048 (ix3 b s o)
      (ix2 (⟨b.val * 2048 + s.val, by omega⟩ : Fin 8192) o) (by
        rw [Shape.rowMajor_val_two, Shape.rowMajor_val_three]; rfl)]
  -- the reshaped tokens: row b · 2048 + s is row (b, s) of the argument
  have hX : ∀ k : Fin 2048, (shapeCast S8192x2048 (m ((c : Thread nD τ).loc main_arg0)) shapeCasts_S4x2048x2048_S8192x2048) (ix2 (⟨b.val * 2048 + s.val, by omega⟩ : Fin 8192) k) = m ((c : Thread nD τ).loc main_arg0) (ix3 b s k) :=
    fun k => shapeCast_apply _ shapeCasts_S4x2048x2048_S8192x2048 _ _ (by
      rw [Shape.rowMajor_val_two, Shape.rowMajor_val_three]; rfl)
  have hQX : (fun k : Fin 2048 => (quantArr (RT := 8192) (K := 2048) (shapeCast S8192x2048 (m ((c : Thread nD τ).loc main_arg0)) shapeCasts_S4x2048x2048_S8192x2048)) (ix2 (⟨b.val * 2048 + s.val, by omega⟩ : Fin 8192) k))
      = quant (fun k : Fin 2048 => m ((c : Thread nD τ).loc main_arg0) (ix3 b s k)) := by
    funext k
    rw [quantArr_ix2]
    exact congrArg (fun f => quant f k) (funext hX)
  have hH : (fun j : Fin 6144 => (hidArr (N := 8192) (H := 2048) (I := 6144) (quantArr (RT := 8192) (K := 2048) (shapeCast S8192x2048 (m ((c : Thread nD τ).loc main_arg0)) shapeCasts_S4x2048x2048_S8192x2048)) (quantArr (RT := 6144) (K := 2048) (m ((c : Thread nD τ).loc main_arg1))) (quantArr (RT := 6144) (K := 2048) (m ((c : Thread nD τ).loc main_arg2)))) (ix2 (⟨b.val * 2048 + s.val, by omega⟩ : Fin 8192) j))
      = hid (fun k : Fin 2048 => m ((c : Thread nD τ).loc main_arg0) (ix3 b s k))
          (fun (j : Fin 6144) (k : Fin 2048) => m ((c : Thread nD τ).loc main_arg1) (ix2 j k))
          (fun (j : Fin 6144) (k : Fin 2048) => m ((c : Thread nD τ).loc main_arg2) (ix2 j k)) := by
    funext j
    rw [hidArr_ix2, hQX]
    rfl
  have hQH : (fun j : Fin 6144 => (quantArr (RT := 8192) (K := 6144) (hidArr (N := 8192) (H := 2048) (I := 6144) (quantArr (RT := 8192) (K := 2048) (shapeCast S8192x2048 (m ((c : Thread nD τ).loc main_arg0)) shapeCasts_S4x2048x2048_S8192x2048)) (quantArr (RT := 6144) (K := 2048) (m ((c : Thread nD τ).loc main_arg1))) (quantArr (RT := 6144) (K := 2048) (m ((c : Thread nD τ).loc main_arg2))))) (ix2 (⟨b.val * 2048 + s.val, by omega⟩ : Fin 8192) j))
      = quant (hid (fun k : Fin 2048 => m ((c : Thread nD τ).loc main_arg0) (ix3 b s k))
          (fun (j : Fin 6144) (k : Fin 2048) => m ((c : Thread nD τ).loc main_arg1) (ix2 j k))
          (fun (j : Fin 6144) (k : Fin 2048) => m ((c : Thread nD τ).loc main_arg2) (ix2 j k))) := by
    funext j
    rw [quantArr_ix2, hH]
  rw [downArr_ix2, hQH]
  rfl

end Cert.Mlp.Kern

end
-- ==== Proof.RefBase.lean ====
/-
  The reference's row maximum read as a fold over the row, for the two layouts the program uses: the last axis of a
  rank-3 array and the last axis of a rank-2 array.  The host's reduce with a maximum body, started from −∞, is at
  each kept index the maximum (from −∞) of the entries along the dropped axis.
-/
import proofs.«119847_j17025250361715_2_alg».proof.Proof.QuantSpec
import Idealize.ShloMosaic.PureOps.Reduce
import Idealize.ShloMosaic.Lib.ValueIdx
import Idealize.ShloMosaic.Lib.Pipeline.Value

noncomputable section

namespace Cert.Mlp.Ref

open Idealize.ShloMosaic Idealize.ShloMosaic.ValueIdx Idealize.ShloMosaic.StableHlo

/-- Over the kept index (i, j), the source index with coordinate `k` on the last axis is (i, j, k). -/
theorem lift3 {a b c : Nat} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Over the kept index i, the source index with coordinate `k` on the last axis is (i, k). -/
theorem lift2 {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

/-- The maximum-reduce over the last axis of a rank-3 array, at (i, j), is the row maximum of row (i, j). -/
theorem reduce3_rowMax {a b c : Nat} (x : (⟨3, ![a, b, c]⟩ : Shape).Idx → EReal)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (i : Fin a) (j : Fin b) :
    Host.reduce (FloatOps.maximumf (F := Ideal) (φ := .f32)) x (constant (⟨0, ![]⟩ : Shape) .f32 0xFF800000#32) h' hu (ix2 i j)
      = rowMax (fun k : Fin c => x (ix3 i j k)) := by
  rw [Host.reduce_eq_fold_single (FloatOps.maximumf (F := Ideal) (φ := .f32)) x _ h' h hu]
  have hf : (x ∘ h.lift (ix2 i j)) = fun k : Fin c => x (ix3 i j k) := funext fun k => congrArg x (lift3 h i j k)
  exact congrArg (fun f => Finset.fold max (Ideal.ofBits .f32 0xFF800000#32) f (Finset.univ : Finset (Fin c))) hf

/-- The maximum-reduce over the last axis of a rank-2 array, at i, is the row maximum of row i. -/
theorem reduce2_rowMax {a b : Nat} (x : (⟨2, ![a, b]⟩ : Shape).Idx → EReal)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (i : Fin a) :
    Host.reduce (FloatOps.maximumf (F := Ideal) (φ := .f32)) x (constant (⟨0, ![]⟩ : Shape) .f32 0xFF800000#32) h' hu (ix1 i)
      = rowMax (fun k : Fin b => x (ix2 i k)) := by
  rw [Host.reduce_eq_fold_single (FloatOps.maximumf (F := Ideal) (φ := .f32)) x _ h' h hu]
  have hf : (x ∘ h.lift (ix1 i)) = fun k : Fin b => x (ix2 i k) := funext fun k => congrArg x (lift2 h i k)
  exact congrArg (fun f => Finset.fold max (Ideal.ofBits .f32 0xFF800000#32) f (Finset.univ : Finset (Fin b))) hf

end Cert.Mlp.Ref

end
-- ==== Proof.RefQuantX.lean ====
/-
  The reference's quantisation of the token rows: the fifteen operations from the magnitudes to the product with the
  scale, read at one entry, are the straight-through quantisation of the row.  The program quantises the token rows
  twice (once for each of the two projections); both copies are the same chain.
-/
import proofs.«119847_j17025250361715_2_alg».proof.Proof.RefBase
import proofs.«119847_j17025250361715_2_alg».proof.Proof.Gen.ReferenceIdeal.Read

noncomputable section

namespace Cert.Mlp.Ref

open Cert.ReferenceIdeal Cert.ReferenceIdeal.Read Idealize.ShloMosaic Idealize.ShloMosaic.ValueIdx Idealize.ShloMosaic.StableHlo

/-- The row maximum of the magnitudes of a token row (first copy). -/
theorem rowMax_v1 (x0 : (⟨S4x2048x2048, .f32⟩ : BufTy).Contents (Elt Ideal)) (b : Fin 4) (s : Fin 2048) :
    val_main_v1 (F := Ideal) x0 (ix2 b s) = rowMax (fun k : Fin 2048 => absE (x0 (ix3 b s k))) := by
  unfold val_main_v1 val_main_cst
  exact reduce3_rowMax (val_main_v0 (F := Ideal) x0) _ (by decide) _ b s

/-- The scale of a token row (first copy), as the keepdims column holds it. -/
theorem scale_v6 (x0 : (⟨S4x2048x2048, .f32⟩ : BufTy).Contents (Elt Ideal)) (b : Fin 4) (s : Fin 2048) (z : Fin 1) :
    val_main_v6 (F := Ideal) x0 (ix3 b s z) = scaleOf (fun k : Fin 2048 => x0 (ix3 b s k)) := by
  have e : idx_main_v2 (ix3 b s z) = (ix2 b s) := funext fun a => Fin.ext (by match a with | ⟨0, _⟩ => rfl | ⟨1, _⟩ => rfl)
  rw [val_main_v6_apply, val_main_v4_apply, val_main_v2_apply, val_main_v3_apply, val_main_cst_0_apply, val_main_v5_apply, val_main_cst_1_apply, e, rowMax_v1]
  rfl

/-- Entry k of the quantised a token row (first copy). -/
theorem quant_v14 (x0 : (⟨S4x2048x2048, .f32⟩ : BufTy).Contents (Elt Ideal)) (b : Fin 4) (s : Fin 2048) (k : Fin 2048) :
    val_main_v14 (F := Ideal) x0 (ix3 b s k) = quantSte (fun k : Fin 2048 => x0 (ix3 b s k)) k := by
  have e7 : idx_main_v7 (ix3 b s k) = (ix3 b s (0 : Fin 1)) := funext fun a => Fin.ext (by match a with | ⟨0, _⟩ => rfl | ⟨1, _⟩ => rfl | ⟨2, _⟩ => rfl)
  have e13 : idx_main_v13 (ix3 b s k) = (ix3 b s (0 : Fin 1)) := funext fun a => Fin.ext (by match a with | ⟨0, _⟩ => rfl | ⟨1, _⟩ => rfl | ⟨2, _⟩ => rfl)
  rw [val_main_v14_apply, val_main_v12_apply, val_main_call1_v4_apply, val_main_call1_v3_apply, val_main_cst_3_apply, val_main_call1_v2_apply, val_main_call1_v1_apply,
    val_main_call1_v0_apply, val_main_cst_2_apply, val_main_v11_apply, val_main_v10_apply, val_main_v9_apply, val_main_v8_apply, val_main_v7_apply, val_main_v13_apply,
    e7, e13, scale_v6]
  rfl

/-- The row maximum of the magnitudes of a token row (second copy). -/
theorem rowMax_v33 (x0 : (⟨S4x2048x2048, .f32⟩ : BufTy).Contents (Elt Ideal)) (b : Fin 4) (s : Fin 2048) :
    val_main_v33 (F := Ideal) x0 (ix2 b s) = rowMax (fun k : Fin 2048 => absE (x0 (ix3 b s k))) := by
  unfold val_main_v33 val_main_cst_9
  exact reduce3_rowMax (val_main_v32 (F := Ideal) x0) _ (by decide) _ b s

/-- The scale of a token row (second copy), as the keepdims column holds it. -/
theorem scale_v38 (x0 : (⟨S4x2048x2048, .f32⟩ : BufTy).Contents (Elt Ideal)) (b : Fin 4) (s : Fin 2048) (z : Fin 1) :
    val_main_v38 (F := Ideal) x0 (ix3 b s z) = scaleOf (fun k : Fin 2048 => x0 (ix3 b s k)) := by
  have e : idx_main_v34 (ix3 b s z) = (ix2 b s) := funext fun a => Fin.ext (by match a with | ⟨0, _⟩ => rfl | ⟨1, _⟩ => rfl)
  rw [val_main_v38_apply, val_main_v36_apply, val_main_v34_apply, val_main_v35_apply, val_main_cst_10_apply, val_main_v37_apply, val_main_cst_11_apply, e, rowMax_v33]
  rfl

/-- Entry k of the quantised a token row (second copy). -/
theorem quant_v46 (x0 : (⟨S4x2048x2048, .f32⟩ : BufTy).Contents (Elt Ideal)) (b : Fin 4) (s : Fin 2048) (k : Fin 2048) :
    val_main_v46 (F := Ideal) x0 (ix3 b s k) = quantSte (fun k : Fin 2048 => x0 (ix3 b s k)) k := by
  have e7 : idx_main_v39 (ix3 b s k) = (ix3 b s (0 : Fin 1)) := funext fun a => Fin.ext (by match a with | ⟨0, _⟩ => rfl | ⟨1, _⟩ => rfl | ⟨2, _⟩ => rfl)
  have e13 : idx_main_v45 (ix3 b s k) = (ix3 b s (0 : Fin 1)) := funext fun a => Fin.ext (by match a with | ⟨0, _⟩ => rfl | ⟨1, _⟩ => rfl | ⟨2, _⟩ => rfl)
  rw [val_main_v46_apply, val_main_v44_apply, val_main_call6_v4_apply, val_main_call6_v3_apply, val_main_cst_13_apply, val_main_call6_v2_apply, val_main_call6_v1_apply,
    val_main_call6_v0_apply, val_main_cst_12_apply, val_main_v43_apply, val_main_v42_apply, val_main_v41_apply, val_main_v40_apply, val_main_v39_apply, val_main_v45_apply,
    e7, e13, scale_v38]
  rfl

end Cert.Mlp.Ref

end
-- ==== Proof.RefQuantW.lean ====
/-
  The reference's quantisation of the three weight matrices, row by row: for each, the fifteen operations from the
  magnitudes to the product with the scale, read at one entry, are the straight-through quantisation of the row.
-/
import proofs.«119847_j17025250361715_2_alg».proof.Proof.RefBase
import proofs.«119847_j17025250361715_2_alg».proof.Proof.Gen.ReferenceIdeal.Read

noncomputable section

namespace Cert.Mlp.Ref

open Cert.ReferenceIdeal Cert.ReferenceIdeal.Read Idealize.ShloMosaic Idealize.ShloMosaic.ValueIdx Idealize.ShloMosaic.StableHlo

/-- The row maximum of the magnitudes of a row of the gate weights. -/
theorem rowMax_v16 (x1 : (⟨S6144x2048, .f32⟩ : BufTy).Contents (Elt Ideal)) (j : Fin 6144) :
    val_main_v16 (F := Ideal) x1 (ix1 j) = rowMax (fun k : Fin 2048 => absE (x1 (ix2 j k))) := by
  unfold val_main_v16 val_main_cst_4
  exact reduce2_rowMax (val_main_v15 (F := Ideal) x1) _ (by decide) _ j

/-- The scale of a row of the gate weights, as the keepdims column holds it. -/
theorem scale_v21 (x1 : (⟨S6144x2048, .f32⟩ : BufTy).Contents (Elt Ideal)) (j : Fin 6144) (z : Fin 1) :
    val_main_v21 (F := Ideal) x1 (ix2 j z) = scaleOf (fun k : Fin 2048 => x1 (ix2 j k)) := by
  have e : idx_main_v17 (ix2 j z) = (ix1 j) := funext fun a => Fin.ext (by match a with | ⟨0, _⟩ => rfl)
  rw [val_main_v21_apply, val_main_v19_apply, val_main_v17_apply, val_main_v18_apply, val_main_cst_5_apply, val_main_v20_apply, val_main_cst_6_apply, e, rowMax_v16]
  rfl

/-- Entry k of the quantised a row of the gate weights. -/
theorem quant_v29 (x1 : (⟨S6144x2048, .f32⟩ : BufTy).Contents (Elt Ideal)) (j : Fin 6144) (k : Fin 2048) :
    val_main_v29 (F := Ideal) x1 (ix2 j k) = quantSte (fun k : Fin 2048 => x1 (ix2 j k)) k := by
  have e7 : idx_main_v22 (ix2 j k) = (ix2 j (0 : Fin 1)) := funext fun a => Fin.ext (by match a with | ⟨0, _⟩ => rfl | ⟨1, _⟩ => rfl)
  have e13 : idx_main_v28 (ix2 j k) = (ix2 j (0 : Fin 1)) := funext fun a => Fin.ext (by match a with | ⟨0, _⟩ => rfl | ⟨1, _⟩ => rfl)
  rw [val_main_v29_apply, val_main_v27_apply, val_main_call3_v4_apply, val_main_call3_v3_apply, val_main_cst_8_apply, val_main_call3_v2_apply, val_main_call3_v1_apply,
    val_main_call3_v0_apply, val_main_cst_7_apply, val_main_v26_apply, val_main_v25_apply, val_main_v24_apply, val_main_v23_apply, val_main_v22_apply, val_main_v28_apply,
    e7, e13, scale_v21]
  rfl

/-- The row maximum of the magnitudes of a row of the up weights. -/
theorem rowMax_v48 (x2 : (⟨S6144x2048, .f32⟩ : BufTy).Contents (Elt Ideal)) (j : Fin 6144) :
    val_main_v48 (F := Ideal) x2 (ix1 j) = rowMax (fun k : Fin 2048 => absE (x2 (ix2 j k))) := by
  unfold val_main_v48 val_main_cst_14
  exact reduce2_rowMax (val_main_v47 (F := Ideal) x2) _ (by decide) _ j

/-- The scale of a row of the up weights, as the keepdims column holds it. -/
theorem scale_v53 (x2 : (⟨S6144x2048, .f32⟩ : BufTy).Contents (Elt Ideal)) (j : Fin 6144) (z : Fin 1) :
    val_main_v53 (F := Ideal) x2 (ix2 j z) = scaleOf (fun k : Fin 2048 => x2 (ix2 j k)) := by
  have e : idx_main_v49 (ix2 j z) = (ix1 j) := funext fun a => Fin.ext (by match a with | ⟨0, _⟩ => rfl)
  rw [val_main_v53_apply, val_main_v51_apply, val_main_v49_apply, val_main_v50_apply, val_main_cst_15_apply, val_main_v52_apply, val_main_cst_16_apply, e, rowMax_v48]
  rfl

/-- Entry k of the quantised a row of the up weights. -/
theorem quant_v61 (x2 : (⟨S6144x2048, .f32⟩ : BufTy).Contents (Elt Ideal)) (j : Fin 6144) (k : Fin 2048) :
    val_main_v61 (F := Ideal) x2 (ix2 j k) = quantSte (fun k : Fin 2048 => x2 (ix2 j k)) k := by
  have e7 : idx_main_v54 (ix2 j k) = (ix2 j (0 : Fin 1)) := funext fun a => Fin.ext (by match a with | ⟨0, _⟩ => rfl | ⟨1, _⟩ => rfl)
  have e13 : idx_main_v60 (ix2 j k) = (ix2 j (0 : Fin 1)) := funext fun a => Fin.ext (by match a with | ⟨0, _⟩ => rfl | ⟨1, _⟩ => rfl)
  rw [val_main_v61_apply, val_main_v59_apply, val_main_call8_v4_apply, val_main_call8_v3_apply, val_main_cst_18_apply, val_main_call8_v2_apply, val_main_call8_v1_apply,
    val_main_call8_v0_apply, val_main_cst_17_apply, val_main_v58_apply, val_main_v57_apply, val_main_v56_apply, val_main_v55_apply, val_main_v54_apply, val_main_v60_apply,
    e7, e13, scale_v53]
  rfl

/-- The row maximum of the magnitudes of a row of the down weights. -/
theorem rowMax_v80 (x3 : (⟨S2048x6144, .f32⟩ : BufTy).Contents (Elt Ideal)) (j : Fin 2048) :
    val_main_v80 (F := Ideal) x3 (ix1 j) = rowMax (fun k : Fin 6144 => absE (x3 (ix2 j k))) := by
  unfold val_main_v80 val_main_cst_24
  exact reduce2_rowMax (val_main_v79 (F := Ideal) x3) _ (by decide) _ j

/-- The scale of a row of the down weights, as the keepdims column holds it. -/
theorem scale_v85 (x3 : (⟨S2048x6144, .f32⟩ : BufTy).Contents (Elt Ideal)) (j : Fin 2048) (z : Fin 1) :
    val_main_v85 (F := Ideal) x3 (ix2 j z) = scaleOf (fun k : Fin 6144 => x3 (ix2 j k)) := by
  have e : idx_main_v81 (ix2 j z) = (ix1 j) := funext fun a => Fin.ext (by match a with | ⟨0, _⟩ => rfl)
  rw [val_main_v85_apply, val_main_v83_apply, val_main_v81_apply, val_main_v82_apply, val_main_cst_25_apply, val_main_v84_apply, val_main_cst_26_apply, e, rowMax_v80]
  rfl

/-- Entry k of the quantised a row of the down weights. -/
theorem quant_v93 (x3 : (⟨S2048x6144, .f32⟩ : BufTy).Contents (Elt Ideal)) (j : Fin 2048) (k : Fin 6144) :
    val_main_v93 (F := Ideal) x3 (ix2 j k) = quantSte (fun k : Fin 6144 => x3 (ix2 j k)) k := by
  have e7 : idx_main_v86 (ix2 j k) = (ix2 j (0 : Fin 1)) := funext fun a => Fin.ext (by match a with | ⟨0, _⟩ => rfl | ⟨1, _⟩ => rfl)
  have e13 : idx_main_v92 (ix2 j k) = (ix2 j (0 : Fin 1)) := funext fun a => Fin.ext (by match a with | ⟨0, _⟩ => rfl | ⟨1, _⟩ => rfl)
  rw [val_main_v93_apply, val_main_v91_apply, val_main_call12_v4_apply, val_main_call12_v3_apply, val_main_cst_28_apply, val_main_call12_v2_apply, val_main_call12_v1_apply,
    val_main_call12_v0_apply, val_main_cst_27_apply, val_main_v90_apply, val_main_v89_apply, val_main_v88_apply, val_main_v87_apply, val_main_v86_apply, val_main_v92_apply,
    e7, e13, scale_v85]
  rfl

end Cert.Mlp.Ref

end
-- ==== Proof.RefHidden.lean ====
/-
  The reference's hidden activations.  The two projections of a token row are contractions of the quantised token row
  with a quantised weight row; the gate goes through g ↦ g · 1/(1 + e^(−g)); the hidden entry is the product of the two.
-/
import proofs.«119847_j17025250361715_2_alg».proof.Proof.RefQuantX
import proofs.«119847_j17025250361715_2_alg».proof.Proof.RefQuantW

noncomputable section

namespace Cert.Mlp.Ref

open Cert.ReferenceIdeal Cert.ReferenceIdeal.Read Idealize.ShloMosaic Idealize.ShloMosaic.ValueIdx Idealize.ShloMosaic.StableHlo

/-- The gate projection: entry j of token row (b, s) is the contraction of the two quantised rows. -/
theorem gate_v30 (x0 : (⟨S4x2048x2048, .f32⟩ : BufTy).Contents (Elt Ideal)) (x1 : (⟨S6144x2048, .f32⟩ : BufTy).Contents (Elt Ideal)) (b : Fin 4) (s : Fin 2048) (j : Fin 6144) :
    val_main_v30 (F := Ideal) x0 x1 (ix3 b s j)
      = dotRow (quantSte (fun k : Fin 2048 => x0 (ix3 b s k))) (quantSte (fun k : Fin 2048 => x1 (ix2 j k))) := by
  rw [val_main_v30_apply]
  unfold dotRow
  refine Finset.sum_congr rfl fun k _ => ?_
  have el : lidx_main_v30 (ix3 b s j) k = ix3 b s k := funext fun a => Fin.ext (by match a with | ⟨0, _⟩ => rfl | ⟨1, _⟩ => rfl | ⟨2, _⟩ => rfl)
  have er : ridx_main_v30 (ix3 b s j) k = ix2 j k := funext fun a => Fin.ext (by match a with | ⟨0, _⟩ => rfl | ⟨1, _⟩ => rfl)
  rw [el, er, quant_v14, quant_v29]

/-- The up projection: entry j of token row (b, s) is the contraction of the two quantised rows. -/
theorem up_v62 (x0 : (⟨S4x2048x2048, .f32⟩ : BufTy).Contents (Elt Ideal)) (x2 : (⟨S6144x2048, .f32⟩ : BufTy).Contents (Elt Ideal)) (b : Fin 4) (s : Fin 2048) (j : Fin 6144) :
    val_main_v62 (F := Ideal) x0 x2 (ix3 b s j)
      = dotRow (quantSte (fun k : Fin 2048 => x0 (ix3 b s k))) (quantSte (fun k : Fin 2048 => x2 (ix2 j k))) := by
  rw [val_main_v62_apply]
  unfold dotRow
  refine Finset.sum_congr rfl fun k _ => ?_
  have el : lidx_main_v62 (ix3 b s j) k = ix3 b s k := funext fun a => Fin.ext (by match a with | ⟨0, _⟩ => rfl | ⟨1, _⟩ => rfl | ⟨2, _⟩ => rfl)
  have er : ridx_main_v62 (ix3 b s j) k = ix2 j k := funext fun a => Fin.ext (by match a with | ⟨0, _⟩ => rfl | ⟨1, _⟩ => rfl)
  rw [el, er, quant_v46, quant_v61]

/-- The gate's nonlinearity, entry by entry. -/
theorem silu_v31 (x0 : (⟨S4x2048x2048, .f32⟩ : BufTy).Contents (Elt Ideal)) (x1 : (⟨S6144x2048, .f32⟩ : BufTy).Contents (Elt Ideal)) (i : S4x2048x6144.Idx) :
    val_main_v31 (F := Ideal) x0 x1 i = silu (val_main_v30 (F := Ideal) x0 x1 i) := by
  rw [val_main_v31_apply, val_main_call4_v5_apply, val_main_call4_v4_apply, val_main_call4_cst_0_apply, val_main_call4_v3_apply,
    val_main_call4_v2_apply, val_main_call4_cst_apply, val_main_call4_v1_apply, val_main_call4_v0_apply]
  rfl

/-- Hidden entry j of token row (b, s). -/
theorem hid_v63 (x0 : (⟨S4x2048x2048, .f32⟩ : BufTy).Contents (Elt Ideal)) (x1 x2 : (⟨S6144x2048, .f32⟩ : BufTy).Contents (Elt Ideal)) (b : Fin 4) (s : Fin 2048) (j : Fin 6144) :
    val_main_v63 (F := Ideal) x0 x1 x2 (ix3 b s j)
      = hidSte (fun k : Fin 2048 => x0 (ix3 b s k)) (fun (j : Fin 6144) (k : Fin 2048) => x1 (ix2 j k))
          (fun (j : Fin 6144) (k : Fin 2048) => x2 (ix2 j k)) j := by
  rw [val_main_v63_apply, silu_v31, gate_v30, up_v62]
  rfl

end Cert.Mlp.Ref

end
-- ==== Proof.RefQuantH.lean ====
/-
  The reference's quantisation of the hidden activations, row by row: the fifteen operations from the magnitudes to the
  product with the scale, read at one entry, are the straight-through quantisation of the hidden row.
-/
import proofs.«119847_j17025250361715_2_alg».proof.Proof.RefHidden

noncomputable section

namespace Cert.Mlp.Ref

open Cert.ReferenceIdeal Cert.ReferenceIdeal.Read Idealize.ShloMosaic Idealize.ShloMosaic.ValueIdx Idealize.ShloMosaic.StableHlo

/-- The row maximum of the magnitudes of a row of the hidden activations. -/
theorem rowMax_v65 (x0 : (⟨S4x2048x2048, .f32⟩ : BufTy).Contents (Elt Ideal)) (x1 x2 : (⟨S6144x2048, .f32⟩ : BufTy).Contents (Elt Ideal)) (b : Fin 4) (s : Fin 2048) :
    val_main_v65 (F := Ideal) x0 x1 x2 (ix2 b s) = rowMax (fun k : Fin 6144 => absE (val_main_v63 (F := Ideal) x0 x1 x2 (ix3 b s k))) := by
  unfold val_main_v65 val_main_cst_19
  exact reduce3_rowMax (val_main_v64 (F := Ideal) x0 x1 x2) _ (by decide) _ b s

/-- The scale of a row of the hidden activations, as the keepdims column holds it. -/
theorem scale_v70 (x0 : (⟨S4x2048x2048, .f32⟩ : BufTy).Contents (Elt Ideal)) (x1 x2 : (⟨S6144x2048, .f32⟩ : BufTy).Contents (Elt Ideal)) (b : Fin 4) (s : Fin 2048) (z : Fin 1) :
    val_main_v70 (F := Ideal) x0 x1 x2 (ix3 b s z) = scaleOf (fun k : Fin 6144 => val_main_v63 (F := Ideal) x0 x1 x2 (ix3 b s k)) := by
  have e : idx_main_v66 (ix3 b s z) = (ix2 b s) := funext fun a => Fin.ext (by match a with | ⟨0, _⟩ => rfl | ⟨1, _⟩ => rfl)
  rw [val_main_v70_apply, val_main_v68_apply, val_main_v66_apply, val_main_v67_apply, val_main_cst_20_apply, val_main_v69_apply, val_main_cst_21_apply, e, rowMax_v65]
  rfl

/-- Entry k of the quantised a row of the hidden activations. -/
theorem quant_v78 (x0 : (⟨S4x2048x2048, .f32⟩ : BufTy).Contents (Elt Ideal)) (x1 x2 : (⟨S6144x2048, .f32⟩ : BufTy).Contents (Elt Ideal)) (b : Fin 4) (s : Fin 2048) (k : Fin 6144) :
    val_main_v78 (F := Ideal) x0 x1 x2 (ix3 b s k) = quantSte (fun k : Fin 6144 => val_main_v63 (F := Ideal) x0 x1 x2 (ix3 b s k)) k := by
  have e7 : idx_main_v71 (ix3 b s k) = (ix3 b s (0 : Fin 1)) := funext fun a => Fin.ext (by match a with | ⟨0, _⟩ => rfl | ⟨1, _⟩ => rfl | ⟨2, _⟩ => rfl)
  have e13 : idx_main_v77 (ix3 b s k) = (ix3 b s (0 : Fin 1)) := funext fun a => Fin.ext (by match a with | ⟨0, _⟩ => rfl | ⟨1, _⟩ => rfl | ⟨2, _⟩ => rfl)
  rw [val_main_v78_apply, val_main_v76_apply, val_main_call10_v4_apply, val_main_call10_v3_apply, val_main_cst_23_apply, val_main_call10_v2_apply, val_main_call10_v1_apply,
    val_main_call10_v0_apply, val_main_cst_22_apply, val_main_v75_apply, val_main_v74_apply, val_main_v73_apply, val_main_v72_apply, val_main_v71_apply, val_main_v77_apply,
    e7, e13, scale_v70]
  rfl

/-- Entry j of the quantised hidden row of token row (b, s), over the argument rows. -/
theorem quantHid_v78 (x0 : (⟨S4x2048x2048, .f32⟩ : BufTy).Contents (Elt Ideal)) (x1 x2 : (⟨S6144x2048, .f32⟩ : BufTy).Contents (Elt Ideal)) (b : Fin 4) (s : Fin 2048) (j : Fin 6144) :
    val_main_v78 (F := Ideal) x0 x1 x2 (ix3 b s j)
      = quantSte (hidSte (fun k : Fin 2048 => x0 (ix3 b s k)) (fun (j : Fin 6144) (k : Fin 2048) => x1 (ix2 j k))
          (fun (j : Fin 6144) (k : Fin 2048) => x2 (ix2 j k))) j := by
  have e : (fun k : Fin 6144 => val_main_v63 (F := Ideal) x0 x1 x2 (ix3 b s k))
      = hidSte (fun k : Fin 2048 => x0 (ix3 b s k)) (fun (j : Fin 6144) (k : Fin 2048) => x1 (ix2 j k))
          (fun (j : Fin 6144) (k : Fin 2048) => x2 (ix2 j k)) := funext fun k => hid_v63 x0 x1 x2 b s k
  rw [quant_v78, e]

end Cert.Mlp.Ref

end
-- ==== Proof.RefValue.lean ====
/-
  The reference's result: entry o of token row (b, s) is the contraction of the quantised hidden row with the quantised
  row o of the down weights, every rounding in its straight-through spelling.
-/
import proofs.«119847_j17025250361715_2_alg».proof.Proof.RefQuantH

noncomputable section

namespace Cert.Mlp.Ref

open Cert.ReferenceIdeal Cert.ReferenceIdeal.Read Idealize.ShloMosaic Idealize.ShloMosaic.ValueIdx Idealize.ShloMosaic.StableHlo

/-- The reference run's result term, read at (b, s, o), is the straight-through gated MLP of the argument rows. -/
theorem result_eq (x0 : (⟨S4x2048x2048, .f32⟩ : BufTy).Contents (Elt Ideal)) (x1 x2 : (⟨S6144x2048, .f32⟩ : BufTy).Contents (Elt Ideal)) (x3 : (⟨S2048x6144, .f32⟩ : BufTy).Contents (Elt Ideal)) (b : Fin 4) (s o : Fin 2048) :
    val_main_v94 (F := Ideal) x0 x1 x2 x3 (ix3 b s o)
      = outRowSte (fun k : Fin 2048 => x0 (ix3 b s k)) (fun (j : Fin 6144) (k : Fin 2048) => x1 (ix2 j k))
          (fun (j : Fin 6144) (k : Fin 2048) => x2 (ix2 j k)) (fun (o' : Fin 2048) (j : Fin 6144) => x3 (ix2 o' j)) o := by
  rw [val_main_v94_apply]
  unfold outRowSte dotRow
  refine Finset.sum_congr rfl fun j _ => ?_
  have el : lidx_main_v94 (ix3 b s o) j = ix3 b s j := funext fun a => Fin.ext (by match a with | ⟨0, _⟩ => rfl | ⟨1, _⟩ => rfl | ⟨2, _⟩ => rfl)
  have er : ridx_main_v94 (ix3 b s o) j = ix2 o j := funext fun a => Fin.ext (by match a with | ⟨0, _⟩ => rfl | ⟨1, _⟩ => rfl)
  rw [el, er, quantHid_v78, quant_v93]

end Cert.Mlp.Ref

end
-- ==== Proof.QuantReal.lean ====
/-
  On real entries the straight-through spelling of the rounding, `a + (round a − a)`, is the rounding itself.

  A row of real numbers has a real, strictly positive quantisation scale: its largest magnitude is a real or
  (for the empty row) −∞, so the scale `max (M / 127) ε` lies between the positive real `ε` and a value below +∞.
  Hence every scaled entry `f k / s` is real, the two spellings of its rounding coincide, and the quantised entry
  is again real. Finite sums and products of reals are real, and so is `g · σ(g)` of a real `g`; therefore the hidden
  row of a real token row and real weights is real, and the whole result row agrees in the two spellings.
-/
import proofs.«119847_j17025250361715_2_alg».proof.Proof.QuantSpec
import proofs.«119847_j17025250361715_2_alg».proof.Proof.Literals

noncomputable section

namespace Cert.Mlp

open Idealize.ShloMosaic

/-- An extended real that is a real number. -/
def IsReal (a : EReal) : Prop := ∃ r : ℝ, a = (r : EReal)

theorem IsReal.coe (r : ℝ) : IsReal (r : EReal) := ⟨r, rfl⟩

theorem IsReal.ne_top {a : EReal} (h : IsReal a) : a ≠ ⊤ := by
  obtain ⟨r, rfl⟩ := h; exact EReal.coe_ne_top r

theorem IsReal.ne_bot {a : EReal} (h : IsReal a) : a ≠ ⊥ := by
  obtain ⟨r, rfl⟩ := h; exact EReal.coe_ne_bot r

theorem IsReal.lt_top {a : EReal} (h : IsReal a) : a < ⊤ := lt_top_iff_ne_top.mpr h.ne_top

/-- An extended real that is neither infinity is a real number. -/
theorem IsReal.of_ne {a : EReal} (ht : a ≠ ⊤) (hb : a ≠ ⊥) : IsReal a :=
  ⟨a.toReal, (EReal.coe_toReal ht hb).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The absolute value of a real is real. -/
theorem IsReal.absE {a : EReal} (ha : IsReal a) : IsReal (absE a) := ha.max ha.neg

/-- The maximum of a row without +∞ is not +∞ (it is a real, or −∞ for the empty row). -/
theorem rowMax_lt_top {K : Nat} (f : Fin K → EReal) (hf : ∀ k, IsReal (f k)) : rowMax f < ⊤ := by
  rw [rowMax, Finset.fold_max_lt]
  refine ⟨?_, fun k _ => (hf k).lt_top⟩
  rw [lit_negInf]; exact bot_lt_top

/-- The scale of a real row is a strictly positive real. -/
theorem scaleOf_pos_real {K : Nat} (f : Fin K → EReal) (hf : ∀ k, IsReal (f k)) :
    ∃ s : ℝ, 0 < s ∧ scaleOf f = (s : EReal) := by
  obtain ⟨e, he, hlit⟩ := lit_eps
  have hM : rowMax (fun k => absE (f k)) < ⊤ := rowMax_lt_top _ fun k => (hf k).absE
  have hdiv : Ideal.div (rowMax fun k => absE (f k)) (Ideal.ofBits .f32 0x42FE0000#32) < ⊤ := by
    rw [lit_qmax, Ideal.div_coe (by norm_num : (127 : ℝ) ≠ 0)]
    generalize rowMax (fun k => absE (f k)) = M at hM
    induction M using EReal.rec with
    | bot => rw [EReal.bot_mul_coe_of_pos (by norm_num)]; exact bot_lt_top
    | coe r => rw [← EReal.coe_mul]; exact EReal.coe_lt_top _
    | top => exact absurd hM (lt_irrefl _)
  have hlt : scaleOf f < ⊤ := by
    rw [scaleOf, hlit]; exact max_lt hdiv (EReal.coe_lt_top e)
  have hle : ((e : ℝ) : EReal) ≤ scaleOf f := by
    rw [scaleOf, hlit]; exact le_max_right _ _
  have hpos : (0 : EReal) < scaleOf f := lt_of_lt_of_le (by exact_mod_cast he) hle
  have hreal : scaleOf f = ((scaleOf f).toReal : EReal) :=
    (EReal.coe_toReal hlt.ne (ne_of_gt (lt_of_le_of_lt bot_le hpos))).symm
  refine ⟨(scaleOf f).toReal, ?_, hreal⟩
  rw [hreal] at hpos; exact_mod_cast hpos

/-- A real divided by a nonzero real is real. -/
theorem IsReal.div_coe {a : EReal} (ha : IsReal a) {s : ℝ} (hs : s ≠ 0) : IsReal (Ideal.div a (s : EReal)) := by
  rw [Ideal.div_coe hs]; exact ha.mul (IsReal.coe _)

/-- The rounding of a real is real. -/
theorem IsReal.rnd {a : EReal} (ha : IsReal a) : IsReal (rnd a) := by
  obtain ⟨r, rfl⟩ := ha; exact ⟨_, Ideal.liftRound_coe r _⟩

/-- At a real, `a + (round a − a) = round a`. -/
theorem ste_eq_rnd {a : EReal} (ha : IsReal a) : a + (rnd a - a) = rnd a := by
  obtain ⟨r, rfl⟩ := ha
  rw [rnd, Ideal.liftRound_coe, ← EReal.coe_sub, ← EReal.coe_add]
  congr 1; ring

/-- The clip of a real is real. -/
theorem IsReal.clipQ {a : EReal} (ha : IsReal a) : IsReal (clipQ a) := by
  rw [Cert.Mlp.clipQ, lit_qmax, lit_negQmax]
  exact (IsReal.coe _).min ((IsReal.coe _).max ha)

/-- The two spellings of the quantisation agree on a real row. -/
theorem quantSte_eq_quant {K : Nat} (f : Fin K → EReal) (hf : ∀ k, IsReal (f k)) : quantSte f = quant f := by
  obtain ⟨s, hs, hsc⟩ := scaleOf_pos_real f hf
  funext k
  rw [quantSte, quant, hsc, ste_eq_rnd ((hf k).div_coe hs.ne')]

/-- A quantised real row is real. -/
theorem quant_real {K : Nat} (f : Fin K → EReal) (hf : ∀ k, IsReal (f k)) (k : Fin K) : IsReal (quant f k) := by
  obtain ⟨s, hs, hsc⟩ := scaleOf_pos_real f hf
  rw [quant, hsc]
  exact ((hf k).div_coe hs.ne').rnd.clipQ.mul (IsReal.coe s)

/-- The contraction of two real rows is real. -/
theorem dotRow_real {K : Nat} (a b : Fin K → EReal) (ha : ∀ k, IsReal (a k)) (hb : ∀ k, IsReal (b k)) :
    IsReal (dotRow a b) :=
  IsReal.sum _ _ fun k _ => (ha k).mul (hb k)

/-- `g · σ(g)` of a real `g` is real. -/
theorem silu_real {g : EReal} (hg : IsReal g) : IsReal (silu g) := by
  obtain ⟨r, rfl⟩ := hg
  have h : (1 : EReal) + Ideal.exp (-(r : EReal)) = ((1 + Real.exp (-r) : ℝ) : EReal) := by
    rw [← EReal.coe_neg, Ideal.exp_coe, ← EReal.coe_one, ← EReal.coe_add]
  have hne : (1 + Real.exp (-r) : ℝ) ≠ 0 := by positivity
  rw [silu, lit_one, h]
  refine (IsReal.coe r).mul ?_
  rw [← EReal.coe_one]
  exact (IsReal.coe 1).div_coe hne

/-- The hidden row of a real token row and real weights is real. -/
theorem hid_real {H I : Nat} (x : Fin H → EReal) (wg wu : Fin I → Fin H → EReal)
    (hx : ∀ k, IsReal (x k)) (hg : ∀ j k, IsReal (wg j k)) (hu : ∀ j k, IsReal (wu j k)) (j : Fin I) :
    IsReal (hid x wg wu j) := by
  rw [hid]
  exact (silu_real (dotRow_real _ _ (quant_real x hx) (quant_real (wg j) (hg j)))).mul
    (dotRow_real _ _ (quant_real x hx) (quant_real (wu j) (hu j)))

/-- The hidden row in the two spellings. -/
theorem hidSte_eq_hid {H I : Nat} (x : Fin H → EReal) (wg wu : Fin I → Fin H → EReal)
    (hx : ∀ k, IsReal (x k)) (hg : ∀ j k, IsReal (wg j k)) (hu : ∀ j k, IsReal (wu j k)) :
    hidSte x wg wu = hid x wg wu := by
  funext j
  rw [hidSte, hid, quantSte_eq_quant x hx, quantSte_eq_quant (wg j) (hg j), quantSte_eq_quant (wu j) (hu j)]

/-- On real arguments the result row with every rounding spelled straight-through is the result row. -/
theorem outRowSte_eq_outRow {H I : Nat} (x : Fin H → EReal) (wg wu : Fin I → Fin H → EReal)
    (wd : Fin H → Fin I → EReal)
    (hx : ∀ k, IsReal (x k)) (hg : ∀ j k, IsReal (wg j k)) (hu : ∀ j k, IsReal (wu j k))
    (hd : ∀ o j, IsReal (wd o j)) (o : Fin H) :
    outRowSte x wg wu wd o = outRow x wg wu wd o := by
  rw [outRowSte, outRow, hidSte_eq_hid x wg wu hx hg hu,
    quantSte_eq_quant (hid x wg wu) (hid_real x wg wu hx hg hu), quantSte_eq_quant (wd o) (hd o)]

end Cert.Mlp

end
-- ==== Proof.FiniteInputs.lean ====
/-
  The precondition read back: every entry of the four arguments is a real number.

  The precondition is the conjunction of four tests, one per argument, each of the form "every entry `x` has
  `|x| < +∞`" (an all-reduction by `and` of the entrywise comparison of `max x (−x)` with the pattern of +∞).
  A conjunction that is true has true conjuncts; an all-reduction that is true is true at every entry; and an
  extended real `x` with `max x (−x) < ⊤` is neither `⊤` nor `⊥` (for `⊥`, `−⊥ = ⊤`), so it is a real.
-/
import proofs.«119847_j17025250361715_2_alg».proof.Pre_finite_inputs
import proofs.«119847_j17025250361715_2_alg».proof.Proof.Gen.Pre_finite_inputs
import proofs.«119847_j17025250361715_2_alg».proof.Proof.QuantReal
import Idealize.ShloMosaic.Lib.ReduceAll

noncomputable section

namespace Cert.Mlp

open Idealize.ShloMosaic

/-- The rank-0 shape has one index. -/
instance : Subsingleton Cert.Pre_finite_inputs.S_.Idx := ⟨fun a b => funext fun d => d.elim0⟩

/-- An extended real whose magnitude is below +∞ is a real number. -/
theorem isReal_of_abs_lt (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | bot => simp [Ideal.cmp] at h
  | coe r => exact IsReal.coe r
  | top => simp [Ideal.cmp] at h

/-- Under the precondition every entry of every argument is a real number. -/
theorem entries_real [Cert.Pre_finite_inputs.Facts]
    (a0 : FVec Ideal Cert.Pre_finite_inputs.S4x2048x2048 .f32) (a1 a2 : FVec Ideal Cert.Pre_finite_inputs.S6144x2048 .f32)
    (a3 : FVec Ideal Cert.Pre_finite_inputs.S2048x6144 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  -- the result at its one index, as the conjunction of the four all-reductions
  have e := congrFun h (fun d => d.elim0)
  dsimp only [Cert.Pre_finite_inputs.fn, Cert.Pre_finite_inputs.fn_part1, andi] at e
  rw [IntOp.andi_eq_one, IntOp.andi_eq_one, IntOp.andi_eq_one] at e
  obtain ⟨⟨⟨e0, e1⟩, e2⟩, e3⟩ := e
  -- each all-reduction at an entry is that entry's comparison `max x (−x) < +∞`
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i)⟩

end Cert.Mlp

end
-- ==== Proof.lean ====
/-
  A gated MLP whose operands are quantised to 8 bits, row by row, before each of its three matrix products.

  For a token row `x` (2048 entries), gate and up weights `Wg`, `Wu` (6144 rows of 2048) and down weights `Wd`
  (2048 rows of 6144): a row `f` is quantised as `q(f)_k = clip (round (f_k / s)) · s` with the clip to [−127, 127]
  and the scale `s = max (max_k |f_k| / 127) ε`; the hidden row is `h_j = g_j · σ(g_j) · u_j` with `g_j = q(x) · q(Wg_j)`,
  `u_j = q(x) · q(Wu_j)` and σ the logistic function; the result row is `out_o = q(h) · q(Wd_o)`.

  The kernel computes this in seven passes over blocks of whole rows (four weight/token quantisations, the gate/up
  products with the gating, the quantisation of the hidden rows, the down product) on the token array reshaped to
  [8192, 2048]; the reference computes it on [4, 2048, 2048] directly. Every pass acts on whole rows, a block's result
  is the restriction of one function of the whole arrays, and the blocks tile their arrays — so on the extended reals
  the kernel's entry (b, s, o) is `out_o` of token row (b, s). The reference spells each rounding as
  `a + (round a − a)`; on finite inputs every scale is a positive real and every scaled entry `a` a real (the
  quantised rows, their contractions and `g · σ(g)` stay real), where that spelling is `round a`. Matrix products
  into a zero accumulator and dot_generals are the same sums; both row maxima are the same fold of `max` from −∞;
  changes of float format are the identity.
-/
import proofs.«119847_j17025250361715_2_alg».proof.Defs
import proofs.«119847_j17025250361715_2_alg».proof.Proof.Gen.Kernel
import proofs.«119847_j17025250361715_2_alg».proof.Proof.Gen.Kernel.Skeleton
import proofs.«119847_j17025250361715_2_alg».proof.Proof.Gen.Kernel.Launch
import proofs.«119847_j17025250361715_2_alg».proof.Proof.Gen.Kernel.Points
import proofs.«119847_j17025250361715_2_alg».proof.Proof.Gen.Kernel.Frame
import proofs.«119847_j17025250361715_2_alg».proof.Proof.Gen.KernelIdeal
import proofs.«119847_j17025250361715_2_alg».proof.Proof.Gen.KernelIdeal.Skeleton
import proofs.«119847_j17025250361715_2_alg».proof.Proof.Gen.KernelIdeal.Launch
import proofs.«119847_j17025250361715_2_alg».proof.Proof.Gen.KernelIdeal.Points
import proofs.«119847_j17025250361715_2_alg».proof.Proof.Gen.KernelIdeal.Frame
import proofs.«119847_j17025250361715_2_alg».proof.Proof.Gen.ReferenceIdeal
import proofs.«119847_j17025250361715_2_alg».proof.Proof.Gen.Pre_finite_inputs
import proofs.«119847_j17025250361715_2_alg».proof.Proof.Gen.ReferenceIdeal.Read
import proofs.«119847_j17025250361715_2_alg».proof.Proof.KernelRun
import proofs.«119847_j17025250361715_2_alg».proof.Proof.KernelValue
import proofs.«119847_j17025250361715_2_alg».proof.Proof.RefValue
import proofs.«119847_j17025250361715_2_alg».proof.Proof.QuantReal
import proofs.«119847_j17025250361715_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- On finite inputs both programs end with the same result: entry `(b, s, o)` is the gated-MLP result row of token
    row `(b, s)` at `o` — the kernel rounds each scaled entry directly, the reference in the straight-through form
    `a + (round a − a)`, and the two agree because every scaled entry is a real number. -/
theorem algebraic : Cert.algebraic_KernelIdeal_ReferenceIdeal := by
  intro m ρ m' ρ' hpre hagree
  refine ⟨fun c => Cert.KernelIdeal.Gen.W9 m ρ c (Proc.devRef .tc Cert.KernelIdeal.main_v8),
    Cert.Mlp.Kern.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2]
  obtain ⟨h0, h1, h2, h3⟩ := Cert.Mlp.entries_real _ _ _ _ (hpre c)
  have key : ∀ (b : Fin 4) (s o : Fin 2048),
      Cert.ReferenceIdeal.Read.val_main_v94 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (ix3 b s o)
        = (Cert.KernelIdeal.Gen.W9 m ρ c (Proc.devRef .tc Cert.KernelIdeal.main_v8)
            : Cert.KernelIdeal.S4x2048x2048.Idx → EReal) (ix3 b s o) := fun b s o =>
    (Cert.Mlp.Ref.result_eq _ _ _ _ b s o).trans
      ((Cert.Mlp.outRowSte_eq_outRow _ _ _ _ (fun k => h0 _) (fun j k => h1 _) (fun j k => h2 _) (fun o' j => h3 _) o).trans
        (Cert.Mlp.Kern.result_at m ρ c b s o).symm)
  refine funext fun (i : Cert.ReferenceIdeal.S4x2048x2048.Idx) => ?_
  rw [eq_ix3 i]
  exact key (i 0) (i 1) (i 2)

/-- The certificate: the three frames, the (empty) idealization ledger, and the equality of results. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
